-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x64 : Shape := ⟨2, ![256, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_

variable [Facts]

def fn_part2 {F : FTy → Type} [FloatOps F] (main_arg8 : FVec F S256x64 .f32) (main_arg9 : FVec F S64 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x256 .f32) (main_arg7 : FVec F S256 .f32) (main_arg8 : FVec F S256x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x256 .f32) (main_arg7 : FVec F S256 .f32) (main_arg8 : FVec F S256x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x64 : Shape := ⟨2, ![256, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x64 : Shape := ⟨2, ![1, 64]⟩
abbrev S4000x64 : Shape := ⟨2, ![4000, 64]⟩
abbrev S4000x1 : Shape := ⟨2, ![4000, 1]⟩
abbrev S1x256 : Shape := ⟨2, ![1, 256]⟩
abbrev S2000x64 : Shape := ⟨2, ![2000, 64]⟩
abbrev S2000x1 : Shape := ⟨2, ![2000, 1]⟩
abbrev S2000x256 : Shape := ⟨2, ![2000, 256]⟩
abbrev S2000 : Shape := ⟨1, ![2000]⟩

abbrev nBuf : Space → Nat
  | .hbm => 106
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S_, .f32⟩
  | .hbm, ⟨25, _⟩ => ⟨S1600000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S1600000x1, .f32⟩
  | .hbm, ⟨53, _⟩ => ⟨S100000x64, .bf16⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .bf16⟩
  | .hbm, ⟨63, _⟩ => ⟨S1600000x64, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S100000x64, .f32⟩
  | .hbm, ⟨77, _⟩ => ⟨S1x64, .f32⟩
  | .hbm, ⟨78, _⟩ => ⟨S100000x64, .bf16⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .bf16⟩
  | .hbm, ⟨88, _⟩ => ⟨S1600000x64, .f32⟩
  | .hbm, ⟨89, _⟩ => ⟨S1600000x64, .f32⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S100000x64, .f32⟩
  | .hbm, ⟨102, _⟩ => ⟨S1x64, .f32⟩
  | .hbm, ⟨103, _⟩ => ⟨S1x256, .f32⟩
  | .hbm, ⟨104, _⟩ => ⟨S1x64, .f32⟩
  | .hbm, ⟨105, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S4000x64, .f32⟩
  | .local _ .vmem, ⟨6, _⟩ => ⟨S4000x64, .f32⟩
  | .local _ .vmem, ⟨7, _⟩ => ⟨S4000x64, .bf16⟩
  | .local _ .vmem, ⟨8, _⟩ => ⟨S4000x64, .bf16⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S4000x64, .bf16⟩
  | .local _ .vmem, ⟨14, _⟩ => ⟨S4000x64, .bf16⟩
  | .local _ .vmem, ⟨15, _⟩ => ⟨S2000x64, .f32⟩
  | .local _ .vmem, ⟨16, _⟩ => ⟨S2000x64, .f32⟩
  | .local _ .vmem, ⟨17, _⟩ => ⟨S2000x64, .bf16⟩
  | .local _ .vmem, ⟨18, _⟩ => ⟨S2000x64, .bf16⟩
  | .local _ .vmem, ⟨19, _⟩ => ⟨S1x64, .f32⟩
  | .local _ .vmem, ⟨20, _⟩ => ⟨S2000x1, .f32⟩
  | .local _ .vmem, ⟨21, _⟩ => ⟨S2000x1, .f32⟩
  | .local _ .vmem, ⟨22, _⟩ => ⟨S64x256, .f32⟩
  | .local _ .vmem, ⟨23, _⟩ => ⟨S1x256, .f32⟩
  | .local _ .vmem, ⟨24, _⟩ => ⟨S256x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  packedbf16_S4000x64_S4000x64_0_0 : (Rect.unit (s := S4000x64) ![0, 0] S4000x64.size inb_S4000x64_S4000x64_0_0).PackedRows (EltTy.packing .bf16)
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  broadcasts_S1x64_S2000x64 : S1x64.Broadcasts S2000x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  reduces_S2000x64_S2000 : S2000x64.Reduces [1] S2000
  shapeCasts_S2000_S2000x1 : S2000.ShapeCasts S2000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S2000x64_S64x256_S2000x256_1_0_0_1_n_n_wf : DotDims.WF S2000x64 S64x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .bf16 = 32 ∨ (Rect.block (s := S100000x64) S4000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .bf16 = 32 ∨ (Rect.block (s := S100000x64) S2000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x256.size a ≤ S64x256.size a
  hwx2_4 : ∀ i : grid2.Coords, EltTy.bits .f32 = 32 ∨ (Rect.block (s := S64x256) S64x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x64.size a ≤ S256x64.size a
  hwx2_6 : ∀ i : grid2.Coords, EltTy.bits .f32 = 32 ∨ (Rect.block (s := S256x64) S256x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x64.size a ≤ S100000x64.size a
  hwx2_8 : ∀ i : grid2.Coords, EltTy.bits .f32 = 32 ∨ (Rect.block (s := S100000x64) S2000x64.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v72) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S256x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v75) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v76) S2000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x64 : Shape := ⟨2, ![256, 64]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x256 : Shape := ⟨2, ![100000, 256]⟩
abbrev S1x256 : Shape := ⟨2, ![1, 256]⟩

abbrev nBuf : Space → Nat
  | .hbm => 179
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x256, .f32⟩
  | 7 => ⟨S256, .f32⟩
  | 8 => ⟨S256x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S100000x64, .f32⟩
  | 15 => ⟨S_, .f32⟩
  | 16 => ⟨S100000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S_, .f32⟩
  | 26 => ⟨S1600000, .f32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S_, .f32⟩
  | 52 => ⟨S100000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x1, .f32⟩
  | 63 => ⟨S1600000x64, .f32⟩
  | 64 => ⟨S1600000x64, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S100000x64, .f32⟩
  | 74 => ⟨S100000, .f32⟩
  | 75 => ⟨S100000x1, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S_, .f32⟩
  | 87 => ⟨S100000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S_, .f32⟩
  | 97 => ⟨S1600000, .f32⟩
  | 98 => ⟨S100000, .f32⟩
  | 99 => ⟨S_, .f32⟩
  | 100 => ⟨S100000, .f32⟩
  | 101 => ⟨S100000, .f32⟩
  | 102 => ⟨S100000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S1600000, .f32⟩
  | 122 => ⟨S_, .f32⟩
  | 123 => ⟨S100000x64, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x64, .f32⟩
  | 5 => ⟨S1600000x1, .f32⟩
  | 6 => ⟨S1600000x64, .f32⟩
  | 7 => ⟨S1600000x64, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S100000x64, .f32⟩
  | 17 => ⟨S100000, .f32⟩
  | 18 => ⟨S100000x1, .f32⟩
  | 19 => ⟨S100000x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S100000x256, .f32⟩
  | 29 => ⟨S1x256, .f32⟩
  | 30 => ⟨S100000x256, .f32⟩
  | 31 => ⟨S100000x256, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S100000x64, .f32⟩
  | 45 => ⟨S_, .f32⟩
  | 46 => ⟨S100000, .f32⟩
  | 47 => ⟨S100000x1, .f32⟩
  | 48 => ⟨S100000x1, .f32⟩
  | 49 => ⟨S100000x64, .f32⟩
  | 50 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call0_cst : Ref sig .tc := ⟨.hbm, 82, rfl⟩
abbrev main_call0_v0 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_c_22 : Ref sig .tc := ⟨.hbm, 124, rfl⟩
abbrev main_v88 : Ref sig .tc := ⟨.hbm, 125, rfl⟩
abbrev main_v89 : Ref sig .tc := ⟨.hbm, 126, rfl⟩
abbrev main_c_23 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_24 : Ref sig .tc := ⟨.hbm, 136, rfl⟩
abbrev main_v98 : Ref sig .tc := ⟨.hbm, 137, rfl⟩
abbrev main_v99 : Ref sig .tc := ⟨.hbm, 138, rfl⟩
abbrev main_c_25 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call1_cst : Ref sig .tc := ⟨.hbm, 153, rfl⟩
abbrev main_call1_v0 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_call2_cst : Ref sig .tc := ⟨.hbm, 164, rfl⟩
abbrev main_call2_v0 : Ref sig .tc := ⟨.hbm, 165, rfl⟩
abbrev main_call2_cst_0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_call2_v5 : Ref sig .tc := ⟨.hbm, 171, rfl⟩
abbrev main_call2_v6 : Ref sig .tc := ⟨.hbm, 172, rfl⟩
abbrev main_call2_cst_1 : Ref sig .tc := ⟨.hbm, 173, rfl⟩
abbrev main_call2_v7 : Ref sig .tc := ⟨.hbm, 174, rfl⟩
abbrev main_call2_v8 : Ref sig .tc := ⟨.hbm, 175, rfl⟩
abbrev main_call2_v9 : Ref sig .tc := ⟨.hbm, 176, rfl⟩
abbrev main_call2_v10 : Ref sig .tc := ⟨.hbm, 177, rfl⟩
abbrev main_v122 : Ref sig .tc := ⟨.hbm, 178, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x64_S100000_d1 : S100000x64.ReducesTo [1] S100000
  h_S_ : 0 < S_.numel
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x256_S100000x256_1_0_0_1_n_n_wf : DotDims.WF S100000x64 S64x256 S100000x256 [1] [0] [0] [1] [] []
  dot_S100000x256_S256x64_S100000x64_1_0_0_1_n_n_wf : DotDims.WF S100000x256 S256x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KRun.lean ====
/-
  The idealized kernel program's run with its result array named: every weakly fair execution ends with the
  result buffer holding what the last region's write-backs leave (the fold of the buffer contents through the
  three regions and the host operations between them), and with the argument arrays unchanged.
-/
import proofs.«147519_j74242804678709_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read: it ends at the last boundary's contents of that buffer, and every
    argument array ends as launched. -/
theorem run_out : θ_run defs (onTc (τ := τ) (main (F := F))) ⟨m, fun _ => 0, ρ⟩ (fun r => ∀ c : Dev nD,
      r.2.mem ((c.tc : Thread nD τ).loc main_v76) = W6 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v76 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Hand

end
-- ==== Proof.Spec.lean ====
/-
  The layers of a two-layer degree-normalised graph convolution followed by two dense layers and a row-wise
  log-softmax, written entry by entry on the extended reals.

  For a node feature array `H` (one row per node), an aggregate array `A` (the normalised sum of the neighbours'
  rows), the per-node self weight `D` (a column) and a bias `B`, one convolution output entry is
  `A(r,k) + H(r,k)·D(r) + B(k)`; a ReLU follows (`act`), then a product with a weight matrix (`lin64`).
  The last stage maps a row `z` of logits to `z - max z - log (∑ exp (z - max z))`.
-/
import Idealize.ShloMosaic.PureOps.Ideal
import Idealize.ShloMosaic.Lib.ValueIdx

noncomputable section

namespace Cert.Gcn

open Idealize.ShloMosaic Idealize.ShloMosaic.ValueIdx

/-- A real-valued array of the given extents. -/
abbrev Arr2 (a b : Nat) : Type := (⟨2, ![a, b]⟩ : Shape).Idx → EReal
abbrev Arr1 (a : Nat) : Type := (⟨1, ![a]⟩ : Shape).Idx → EReal

/-- The value the zero word denotes, and the value the word of minus infinity denotes. -/
abbrev zeroW : EReal := Ideal.ofBits .f32 0x00000000#32
abbrev ninfW : EReal := Ideal.ofBits .f32 0xFF800000#32

/-- The first linear transform: row `r` of `x` against column `q` of `w`. -/
def lin128 (x : Arr2 100000 128) (w : Arr2 128 64) : Arr2 100000 64 :=
  fun i => ∑ k : Fin 128, x (ix2 (i 0) k) * w (ix2 k (i 1))

/-- One graph-convolution output entry, then ReLU: `max (A(r,k) + H(r,k)·D(r) + B(k)) 0`. -/
def act (A H : Arr2 100000 64) (D : Arr2 100000 1) (B : Arr1 64) : Arr2 100000 64 :=
  fun i => max (A i + H i * D (ix2 (i 0) 0) + B (ix1 (i 1))) zeroW

/-- A product with a 64 × 64 weight matrix. -/
def lin64 (X : Arr2 100000 64) (W : Arr2 64 64) : Arr2 100000 64 :=
  fun i => ∑ k : Fin 64, X (ix2 (i 0) k) * W (ix2 k (i 1))

/-- The second layer's features: the first convolution's activation times the second weight matrix. -/
def layer2 (A H : Arr2 100000 64) (D : Arr2 100000 1) (B : Arr1 64) (W : Arr2 64 64) : Arr2 100000 64 :=
  lin64 (act A H D B) W

/-- The hidden dense layer: `X·W3 + b3`. -/
def hidden (X : Arr2 100000 64) (W3 : Arr2 64 256) (B3 : Arr1 256) : Arr2 100000 256 :=
  fun i => (∑ k : Fin 64, X (ix2 (i 0) k) * W3 (ix2 k (i 1))) + B3 (ix1 (i 1))

/-- The output dense layer: `Y·W4 + b4`. -/
def logits (Y : Arr2 100000 256) (W4 : Arr2 256 64) (B4 : Arr1 64) : Arr2 100000 64 :=
  fun i => (∑ k : Fin 256, Y (ix2 (i 0) k) * W4 (ix2 k (i 1))) + B4 (ix1 (i 1))

/-- A row's maximum, taken from minus infinity, and once more against minus infinity. -/
def rowMax (Z : Arr2 100000 64) (r : Fin 100000) : EReal :=
  max ninfW ((Finset.univ : Finset (Fin 64)).fold max ninfW (fun k => Z (ix2 r k)))

/-- A row shifted by its maximum. -/
def shifted (Z : Arr2 100000 64) : Arr2 100000 64 := fun i => Z i - rowMax Z (i 0)

/-- The row-wise log-softmax: the shifted row minus the logarithm of the sum of its exponentials. -/
def logSoftmax (Z : Arr2 100000 64) : Arr2 100000 64 :=
  fun i => shifted Z i - Ideal.log (∑ k : Fin 64, Ideal.exp (shifted Z (ix2 (i 0) k)))

/-- The last stage as a whole: convolution activation, two dense layers, log-softmax. -/
def head (A H : Arr2 100000 64) (D : Arr2 100000 1) (B2 : Arr1 64) (W3 : Arr2 64 256) (B3 : Arr1 256)
    (W4 : Arr2 256 64) (B4 : Arr1 64) : Arr2 100000 64 :=
  logSoftmax (logits (hidden (act A H D B2) W3 B3) W4 B4)

end Cert.Gcn

end
-- ==== Proof.Reg0.lean ====
/-
  The first region: every block of 10000 rows of `x` against the whole `W1`. Its result array, after all ten
  write-backs, is the product `x·W1` entry by entry, whatever the contents the region is entered from: block `t`
  of the result holds rows `10000·t … 10000·t + 9999`, and the ten blocks tile the 100000 rows.
-/
import proofs.«147519_j74242804678709_2_alg».proof.Proof.Gen.KernelIdeal.Frame
import proofs.«147519_j74242804678709_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- The left operand's index of the block product at output entry `(p, q)` and contraction coordinate `k` is `(p, k)`. -/
theorem lhs0 (p : Fin 10000) (q : Fin 64) (k : Fin 128) :
    dot_S10000x128_S128x64_S10000x64_1_0_0_1_n_n.lhsIdx (ix2 p q) ((contrEquiv1 dot_S10000x128_S128x64_S10000x64_1_0_0_1_n_n 128 rfl rfl).symm k) = ix2 p k := by
  have hk := contrEquiv1_symm_val dot_S10000x128_S128x64_S10000x64_1_0_0_1_n_n 128 rfl rfl k
  funext a; apply Fin.ext
  match a with
  | ⟨0, _⟩ =>
    show (dot_S10000x128_S128x64_S10000x64_1_0_0_1_n_n.lhsIdx (ix2 p q) _ 0).val = p.val
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  | ⟨1, _⟩ => exact (dot_S10000x128_S128x64_S10000x64_1_0_0_1_n_n.lhsIdx_val_of_single rfl (ix2 p q) _).trans hk

/-- The right operand's index there is `(k, q)`. -/
theorem rhs0 (p : Fin 10000) (q : Fin 64) (k : Fin 128) :
    dot_S10000x128_S128x64_S10000x64_1_0_0_1_n_n.rhsIdx (ix2 p q) ((contrEquiv1 dot_S10000x128_S128x64_S10000x64_1_0_0_1_n_n 128 rfl rfl).symm k) = ix2 k q := by
  have hk := contrEquiv1_symm_val dot_S10000x128_S128x64_S10000x64_1_0_0_1_n_n 128 rfl rfl k
  funext a; apply Fin.ext
  match a with
  | ⟨0, _⟩ => exact (dot_S10000x128_S128x64_S10000x64_1_0_0_1_n_n.rhsIdx_val_of_single rfl (ix2 p q) _).trans hk
  | ⟨1, _⟩ =>
    show (dot_S10000x128_S128x64_S10000x64_1_0_0_1_n_n.rhsIdx (ix2 p q) _ 1).val = q.val
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

/-- The body's stored value at entry `(p, q)` of a block: the sum over `k` of the row block's `(p, k)` times the
    weights' `(k, q)` (a change of float format is the identity on the extended reals, and the product
    accumulates into zero). -/
theorem pay0_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  show FloatOps.matmul (F := Ideal) dot_S10000x128_S128x64_S10000x64_1_0_0_1_n_n none _ _ (constant (F := Ideal) S10000x64 .f32 0x00000000#32) (ix2 p q) = _
  rw [Ideal.matmul_constant_zero_apply, ← Equiv.sum_comp (contrEquiv1 dot_S10000x128_S128x64_S10000x64_1_0_0_1_n_n 128 rfl rfl).symm]
  refine Finset.sum_congr rfl fun k _ => ?_
  rw [lhs0 p q k, rhs0 p q k]
  rfl

variable (V : (c : Dev nD) → (b : Ref sig .tc) → Buf (Elt Ideal) ((c : Thread nD τ).loc b))

/-- The printed index maps over the grid: the row block moves with the point, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `x·W1` of the arrays as the region finds them. -/
theorem flushed0_eq (c : Dev nD) (t : Fin cfg0.N) :
    (dat0 V c).flushed 2 t = ((cfg0.win 2).blk t).view.read (Elt Ideal) (lin128 (V c main_arg0) (V c main_arg2)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x64) hz2]
  obtain ⟨e0, e1, e2, e3, e4, e5⟩ := idx_facts0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = lin128 (V c main_arg0) (V c main_arg2) (((cfg0.win 2).blk t).view.emb (ix2 p q))
  refine (pay0_apply _ _ p q).trans ?_
  unfold lin128
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  show FloatOps.mulf (F := Ideal) (φ := .f32) (V c main_arg0 (((cfg0.win 0).blk t).view.emb (ix2 p k)))
      (V c main_arg2 (((cfg0.win 1).blk t).view.emb (ix2 k q))) = _
  rw [h0, h1] <;> rfl

/-- An index of the result array is in point `t`'s block iff each coordinate is in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- Row `r` lies in the block of point `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := idx_facts0 t
  have e4' : win0_2.index t (0 : Fin 2) = (i 0).val / 10000 := e4
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The first region's result array after the run is `x·W1` of the arrays it was entered from. -/
theorem final0 (c : Dev nD) : (dat0 V c).arrAt 2 cfg0.N = lin128 (V c main_arg0) (V c main_arg2) :=
  (dat0 V c).arrAt_eq_of_cover 2 (lin128 (V c main_arg0) (V c main_arg2)) (fun t _ => flushed0_eq V c t) cover0

end Cert.KernelIdeal.Hand

end
-- ==== Proof.LibColumnBroadcast.lean ====
/-
  The keepdims forms of a per-row scalar, read at an index: a column broadcast over the lanes, and a vector
  reshaped to a column.
-/
import Idealize.ShloMosaic.Lib.Pipeline.Value
import Idealize.ShloMosaic.Lib.ValueIdx

namespace Cert.Lib.ColumnBroadcast

open Idealize.ShloMosaic Idealize.ShloMosaic.ValueIdx

variable {α : Type}

/-- An `[a, 1]` array broadcast to `[a, b]` reads, at `(p, c)`, the operand's one column at row `p`
    (the keepdims form of a per-row scalar spread over the row). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`
    (the keepdims form of a per-row reduction's result). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib.ColumnBroadcast
-- ==== Proof.Reg1.lean ====
/-
  The second region: for every block of 4000 rows, the first convolution's output entry
  `A(r,k) + H(r,k)·D(r) + b(k)`, its ReLU, and the product with the whole `W2`. Its result array after all 25
  write-backs is that function of the arrays the region is entered from, entry by entry: block `t` holds rows
  `4000·t … 4000·t + 3999`, and the blocks tile the 100000 rows. The bias reaches the region as a one-row array,
  the reshape of the bias vector.
-/
import proofs.«147519_j74242804678709_2_alg».proof.Proof.Gen.KernelIdeal.Frame
import proofs.«147519_j74242804678709_2_alg».proof.Proof.Spec
import proofs.«147519_j74242804678709_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

open Cert.Lib.ColumnBroadcast

theorem hz2' : (![0, 0] : Fin 2 → Nat) = fun _ => 0 := funext fun a => by fin_cases a <;> rfl

/-- The left operand's index of the block product `1` at output entry `(p, q)` and contraction coordinate `k` is `(p, k)`. -/
theorem lhs1 (p : Fin 4000) (q : Fin 64) (k : Fin 64) :
    dot_S4000x64_S64x64_S4000x64_1_0_0_1_n_n.lhsIdx (ix2 p q) ((contrEquiv1 dot_S4000x64_S64x64_S4000x64_1_0_0_1_n_n 64 rfl rfl).symm k) = ix2 p k := by
  have hk := contrEquiv1_symm_val dot_S4000x64_S64x64_S4000x64_1_0_0_1_n_n 64 rfl rfl k
  funext a; apply Fin.ext
  match a with
  | ⟨0, _⟩ =>
    show (dot_S4000x64_S64x64_S4000x64_1_0_0_1_n_n.lhsIdx (ix2 p q) _ 0).val = p.val
    unfold DotDims.lhsIdx
    rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
    rfl
  | ⟨1, _⟩ => exact (dot_S4000x64_S64x64_S4000x64_1_0_0_1_n_n.lhsIdx_val_of_single rfl (ix2 p q) _).trans hk

/-- The right operand's index there is `(k, q)`. -/
theorem rhs1 (p : Fin 4000) (q : Fin 64) (k : Fin 64) :
    dot_S4000x64_S64x64_S4000x64_1_0_0_1_n_n.rhsIdx (ix2 p q) ((contrEquiv1 dot_S4000x64_S64x64_S4000x64_1_0_0_1_n_n 64 rfl rfl).symm k) = ix2 k q := by
  have hk := contrEquiv1_symm_val dot_S4000x64_S64x64_S4000x64_1_0_0_1_n_n 64 rfl rfl k
  funext a; apply Fin.ext
  match a with
  | ⟨0, _⟩ => exact (dot_S4000x64_S64x64_S4000x64_1_0_0_1_n_n.rhsIdx_val_of_single rfl (ix2 p q) _).trans hk
  | ⟨1, _⟩ =>
    show (dot_S4000x64_S64x64_S4000x64_1_0_0_1_n_n.rhsIdx (ix2 p q) _ 1).val = q.val
    unfold DotDims.rhsIdx
    rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
    rfl

/-- The body's stored value at entry `(p, q)` of a block: the sum over `k` of the activated convolution entry
    `max (A(p,k) + H(p,k)·D(p) + b(k)) 0` times the weights' `(k, q)`. -/
theorem pay1_apply (v0 : Vec Ideal S4000x64 .bf16) (v3 : Vec Ideal S4000x1 .f32) (v7 : Vec Ideal S4000x64 .f32)
    (v10 : Vec Ideal S1x64 .f32) (v17 : Vec Ideal S64x64 .f32) (p : Fin 4000) (q : Fin 64) :
    k1_pay1 v0 v3 v7 v10 v17 (ix2 p q)
      = ∑ k : Fin 64, max (v7 (ix2 p k) + v0 (ix2 p k) * v3 (ix2 p (0 : Fin 1)) + v10 (ix2 (0 : Fin 1) k)) zeroW * v17 (ix2 k q) := by
  unfold k1_pay1
  simp only [shapeCast_self]
  show FloatOps.matmul (F := Ideal) dot_S4000x64_S64x64_S4000x64_1_0_0_1_n_n none _ _ (constant (F := Ideal) S4000x64 .f32 0x00000000#32) (ix2 p q) = _
  rw [Ideal.matmul_constant_zero_apply, ← Equiv.sum_comp (contrEquiv1 dot_S4000x64_S64x64_S4000x64_1_0_0_1_n_n 64 rfl rfl).symm]
  refine Finset.sum_congr rfl fun k _ => ?_
  rw [lhs1 p q k, rhs1 p q k]
  show max (v7 (ix2 p k) + v0 (ix2 p k) * (broadcastTo S4000x64 v3 broadcasts_S4000x1_S4000x64 (ix2 p k))
      + broadcastTo S4000x64 v10 broadcasts_S1x64_S4000x64 (ix2 p k)) (Ideal.ofBits .f32 0x00000000#32) * v17 (ix2 k q) = _
  rw [broadcastTo_a1_ab_apply, broadcastTo_1b_ab_apply]

variable (V : (c : Dev nD) → (b : Ref sig .tc) → Buf (Elt Ideal) ((c : Thread nD τ).loc b))

/-! The printed index maps over the grid, window by window: a row-blocked window's block index is `(t, 0)`, a whole
    window's `(0, 0)`. -/

set_option maxHeartbeats 4000000 in
theorem idx1_0 : ∀ t : Fin cfg1.N, win1_0.index t (0 : Fin 2) = t.val ∧ win1_0.index t (1 : Fin 2) = 0 :=
  (by decide +kernel : ∀ t : Fin grid1.N, _)
set_option maxHeartbeats 4000000 in
theorem idx1_1 : ∀ t : Fin cfg1.N, win1_1.index t (0 : Fin 2) = t.val ∧ win1_1.index t (1 : Fin 2) = 0 :=
  (by decide +kernel : ∀ t : Fin grid1.N, _)
set_option maxHeartbeats 4000000 in
theorem idx1_2 : ∀ t : Fin cfg1.N, win1_2.index t (0 : Fin 2) = t.val ∧ win1_2.index t (1 : Fin 2) = 0 :=
  (by decide +kernel : ∀ t : Fin grid1.N, _)
set_option maxHeartbeats 4000000 in
theorem idx1_3 : ∀ t : Fin cfg1.N, win1_3.index t (0 : Fin 2) = 0 ∧ win1_3.index t (1 : Fin 2) = 0 :=
  (by decide +kernel : ∀ t : Fin grid1.N, _)
set_option maxHeartbeats 4000000 in
theorem idx1_4 : ∀ t : Fin cfg1.N, win1_4.index t (0 : Fin 2) = 0 ∧ win1_4.index t (1 : Fin 2) = 0 :=
  (by decide +kernel : ∀ t : Fin grid1.N, _)
set_option maxHeartbeats 4000000 in
theorem idx1_5 : ∀ t : Fin cfg1.N, win1_5.index t (0 : Fin 2) = t.val ∧ win1_5.index t (1 : Fin 2) = 0 :=
  (by decide +kernel : ∀ t : Fin grid1.N, _)

theorem idx_facts1 (t : Fin cfg1.N) : win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  ⟨(idx1_0 t).1, (idx1_0 t).2, (idx1_1 t).1, (idx1_1 t).2, (idx1_2 t).1, (idx1_2 t).2, (idx1_3 t).1, (idx1_3 t).2,
    (idx1_4 t).1, (idx1_4 t).2, (idx1_5 t).1, (idx1_5 t).2⟩

set_option maxHeartbeats 4000000 in
/-- What point `t` writes back is block `t` of the second layer's features of the arrays as the region finds them. -/
theorem flushed1_eq (c : Dev nD) (b : S64.Idx → EReal) (hB : V c main_v53 = shapeCast S1x64 b shapeCasts_S64_S1x64) (t : Fin cfg1.N) :
    (dat1 V c).flushed 5 t = ((cfg1.win 5).blk t).view.read (Elt Ideal)
      (layer2 (V c main_v52) (V c main_v34) (V c main_v17) b (V c main_arg4)) := by
  show (cfg1.win 5).cut (grid1.coords t) ((dat1 V c).after 5 t) = _
  rw [after1_5]
  unfold out1_5
  rw [View.canon_unit_zero hz2']
  simp only [View.ld_unit_zero (S := S4000x64) hz2', View.ld_unit_zero (S := S4000x1) hz2', View.ld_unit_zero (S := S1x64) hz2',
    View.ld_unit_zero (S := S64x64) hz2']
  obtain ⟨a0, a1, b0, b1, d0, d1, g0, g1, w0, w1, o0, o1⟩ := idx_facts1 t
  funext j
  obtain ⟨p, q, rfl⟩ : ∃ (p : Fin 4000) (q : Fin 64), j = ix2 p q := ⟨j 0, j 1, eq_ix2 j⟩
  show k1_pay1 (iblk1 V c 1 t) (iblk1 V c 2 t) (iblk1 V c 0 t) (iblk1 V c 3 t) (iblk1 V c 4 t) (ix2 p q)
    = layer2 (V c main_v52) (V c main_v34) (V c main_v17) b (V c main_arg4) (((cfg1.win 5).blk t).view.emb (ix2 p q))
  refine (pay1_apply _ _ _ _ _ p q).trans ?_
  unfold layer2 lin64 act
  refine Finset.sum_congr rfl fun k _ => ?_
  have e0 : ((cfg1.win 0).blk t).view.emb (ix2 p k) = ix2 ((((cfg1.win 5).blk t).view.emb (ix2 p q)) 0) k := by
    funext a; apply Fin.ext
    match a with
    | ⟨0, _⟩ => show win1_0.index t (0 : Fin 2) * 4000 + 1 * p.val = win1_5.index t (0 : Fin 2) * 4000 + 1 * p.val; omega
    | ⟨1, _⟩ => show win1_0.index t (1 : Fin 2) * 64 + 1 * k.val = k.val; omega
  have e1 : ((cfg1.win 1).blk t).view.emb (ix2 p k) = ix2 ((((cfg1.win 5).blk t).view.emb (ix2 p q)) 0) k := by
    funext a; apply Fin.ext
    match a with
    | ⟨0, _⟩ => show win1_1.index t (0 : Fin 2) * 4000 + 1 * p.val = win1_5.index t (0 : Fin 2) * 4000 + 1 * p.val; omega
    | ⟨1, _⟩ => show win1_1.index t (1 : Fin 2) * 64 + 1 * k.val = k.val; omega
  have e2 : ((cfg1.win 2).blk t).view.emb (ix2 p (0 : Fin 1)) = ix2 ((((cfg1.win 5).blk t).view.emb (ix2 p q)) 0) (0 : Fin 1) := by
    funext a; apply Fin.ext
    match a with
    | ⟨0, _⟩ => show win1_2.index t (0 : Fin 2) * 4000 + 1 * p.val = win1_5.index t (0 : Fin 2) * 4000 + 1 * p.val; omega
    | ⟨1, _⟩ => show win1_2.index t (1 : Fin 2) * 1 + 1 * 0 = 0; omega
  have e3 : ((cfg1.win 3).blk t).view.emb (ix2 (0 : Fin 1) k) = ix2 (0 : Fin 1) k := by
    funext a; apply Fin.ext
    match a with
    | ⟨0, _⟩ => show win1_3.index t (0 : Fin 2) * 1 + 1 * 0 = 0; omega
    | ⟨1, _⟩ => show win1_3.index t (1 : Fin 2) * 64 + 1 * k.val = k.val; omega
  have e4 : ((cfg1.win 4).blk t).view.emb (ix2 k q) = ix2 k ((((cfg1.win 5).blk t).view.emb (ix2 p q)) 1) := by
    funext a; apply Fin.ext
    match a with
    | ⟨0, _⟩ => show win1_4.index t (0 : Fin 2) * 64 + 1 * k.val = k.val; omega
    | ⟨1, _⟩ => show win1_4.index t (1 : Fin 2) * 64 + 1 * q.val = win1_5.index t (1 : Fin 2) * 64 + 1 * q.val; omega
  have e3' : (V c main_v53 : S1x64.Idx → EReal) (ix2 (0 : Fin 1) k) = b (ix1 k) := by
    rw [hB]; exact shapeCast_a_1a_apply b _ 0 k
  show FloatOps.mulf (F := Ideal) (φ := .f32)
      (FloatOps.maximumf (FloatOps.addf (FloatOps.addf (V c main_v52 (((cfg1.win 0).blk t).view.emb (ix2 p k)))
          (FloatOps.mulf (V c main_v34 (((cfg1.win 1).blk t).view.emb (ix2 p k)))
            (V c main_v17 (((cfg1.win 2).blk t).view.emb (ix2 p (0 : Fin 1))))))
        (V c main_v53 (((cfg1.win 3).blk t).view.emb (ix2 (0 : Fin 1) k)))) zeroW)
      (V c main_arg4 (((cfg1.win 4).blk t).view.emb (ix2 k q))) = _
  rw [e0, e1, e2, e3, e4, e3'] <;> rfl

/-- An index of the result array is in point `t`'s block iff each coordinate is in the block's range. -/
theorem mem_blk1 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v54).slice (win1_5.rect t)).set ↔ _
  rw [View.set_slice_whole, Rect.mem_set_unit]
  exact Iff.rfl

/-- Row `r` lies in the block of point `r / 4000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  obtain ⟨a0, a1, b0, b1, d0, d1, g0, g1, w0, w1, o0, o1⟩ := idx_facts1 t
  have o0' : win1_5.index t (0 : Fin 2) = (i 0).val / 4000 := o0
  refine ⟨t, flush1_5 t, ?_⟩
  rw [mem_blk1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- The second region's result array after the run: the second layer's features of the arrays it was entered from. -/
theorem final1 (c : Dev nD) (b : S64.Idx → EReal) (hB : V c main_v53 = shapeCast S1x64 b shapeCasts_S64_S1x64) :
    (dat1 V c).arrAt 5 cfg1.N = layer2 (V c main_v52) (V c main_v34) (V c main_v17) b (V c main_arg4) :=
  (dat1 V c).arrAt_eq_of_cover 5 _ (fun t _ => flushed1_eq V c b hB t) cover1

end Cert.KernelIdeal.Hand

end
-- ==== Proof.SpecRows.lean ====
/-
  The last stage of the network is row-local: entry `(r, q)` of its output depends on the aggregate, the features and
  the self weight only through their row `r`. Written here as a function of one row, and the whole-array stage read
  through it.
-/
import proofs.«147519_j74242804678709_2_alg».proof.Proof.Spec

noncomputable section

namespace Cert.Gcn

open Idealize.ShloMosaic Idealize.ShloMosaic.ValueIdx

/-- One row's activated convolution output: `max (a k + h k · d + b k) 0`. -/
def actRow (a h : Fin 64 → EReal) (d : EReal) (b : Arr1 64) : Fin 64 → EReal :=
  fun k => max (a k + h k * d + b (ix1 k)) zeroW

/-- One row through the hidden dense layer. -/
def hiddenRow (x : Fin 64 → EReal) (W3 : Arr2 64 256) (B3 : Arr1 256) : Fin 256 → EReal :=
  fun j => (∑ k : Fin 64, x k * W3 (ix2 k j)) + B3 (ix1 j)

/-- One row through the output dense layer. -/
def logitsRow (y : Fin 256 → EReal) (W4 : Arr2 256 64) (B4 : Arr1 64) : Fin 64 → EReal :=
  fun q => (∑ k : Fin 256, y k * W4 (ix2 k q)) + B4 (ix1 q)

/-- The maximum of a row of logits, taken from minus infinity and once more against it. -/
def maxRow (z : Fin 64 → EReal) : EReal := max ninfW ((Finset.univ : Finset (Fin 64)).fold max ninfW z)

/-- The log-softmax of one row. -/
def lsmRow (z : Fin 64 → EReal) : Fin 64 → EReal :=
  fun q => (z q - maxRow z) - Ideal.log (∑ k : Fin 64, Ideal.exp (z k - maxRow z))

/-- The last stage on one row. -/
def headRow (a h : Fin 64 → EReal) (d : EReal) (b2 : Arr1 64) (W3 : Arr2 64 256) (b3 : Arr1 256) (W4 : Arr2 256 64)
    (b4 : Arr1 64) : Fin 64 → EReal :=
  lsmRow (logitsRow (hiddenRow (actRow a h d b2) W3 b3) W4 b4)

/-- The whole-array last stage at an entry is the row function of that entry's row. -/
theorem head_row (A H : Arr2 100000 64) (D : Arr2 100000 1) (b2 : Arr1 64) (W3 : Arr2 64 256) (b3 : Arr1 256)
    (W4 : Arr2 256 64) (b4 : Arr1 64) (i : (⟨2, ![100000, 64]⟩ : Shape).Idx) :
    head A H D b2 W3 b3 W4 b4 i
      = headRow (fun k => A (ix2 (i 0) k)) (fun k => H (ix2 (i 0) k)) (D (ix2 (i 0) (0 : Fin 1))) b2 W3 b3 W4 b4 (i 1) := rfl

end Cert.Gcn

end
-- ==== Proof.Reg2.lean ====
/-
  The third region: for every block of 2000 rows, the second convolution's output entry, its ReLU, the two dense
  layers and the row-wise log-softmax. Each output entry depends on the inputs only through its own row, so block
  `t` of the result array holds the last stage of rows `2000·t … 2000·t + 1999`, and the 50 blocks tile the 100000
  rows. The three biases reach the region as one-row arrays, the reshapes of the bias vectors.
-/
import proofs.«147519_j74242804678709_2_alg».proof.Proof.Gen.KernelIdeal.Frame
import proofs.«147519_j74242804678709_2_alg».proof.Proof.Spec
import proofs.«147519_j74242804678709_2_alg».proof.Proof.SpecRows
import proofs.«147519_j74242804678709_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

open Cert.Lib.ColumnBroadcast

theorem hz2'' : (![0, 0] : Fin 2 → Nat) = fun _ => 0 := funext fun a => by fin_cases a <;> rfl

/-- The left operand's index of the block product `A` at output entry `(p, q)` and contraction coordinate `k` is `(p, k)`. -/
theorem lhsA (p : Fin 2000) (q : Fin 256) (k : Fin 64) :
    dot_S2000x64_S64x256_S2000x256_1_0_0_1_n_n.lhsIdx (ix2 p q) ((contrEquiv1 dot_S2000x64_S64x256_S2000x256_1_0_0_1_n_n 64 rfl rfl).symm k) = ix2 p k := by
  have hk := contrEquiv1_symm_val dot_S2000x64_S64x256_S2000x256_1_0_0_1_n_n 64 rfl rfl k
  funext a; apply Fin.ext
  match a with
  | ⟨0, _⟩ =>
    show (dot_S2000x64_S64x256_S2000x256_1_0_0_1_n_n.lhsIdx (ix2 p q) _ 0).val = p.val
    unfold DotDims.lhsIdx
    rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
    rfl
  | ⟨1, _⟩ => exact (dot_S2000x64_S64x256_S2000x256_1_0_0_1_n_n.lhsIdx_val_of_single rfl (ix2 p q) _).trans hk

/-- The right operand's index there is `(k, q)`. -/
theorem rhsA (p : Fin 2000) (q : Fin 256) (k : Fin 64) :
    dot_S2000x64_S64x256_S2000x256_1_0_0_1_n_n.rhsIdx (ix2 p q) ((contrEquiv1 dot_S2000x64_S64x256_S2000x256_1_0_0_1_n_n 64 rfl rfl).symm k) = ix2 k q := by
  have hk := contrEquiv1_symm_val dot_S2000x64_S64x256_S2000x256_1_0_0_1_n_n 64 rfl rfl k
  funext a; apply Fin.ext
  match a with
  | ⟨0, _⟩ => exact (dot_S2000x64_S64x256_S2000x256_1_0_0_1_n_n.rhsIdx_val_of_single rfl (ix2 p q) _).trans hk
  | ⟨1, _⟩ =>
    show (dot_S2000x64_S64x256_S2000x256_1_0_0_1_n_n.rhsIdx (ix2 p q) _ 1).val = q.val
    unfold DotDims.rhsIdx
    rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
    rfl

/-- The left operand's index of the block product `B` at output entry `(p, q)` and contraction coordinate `k` is `(p, k)`. -/
theorem lhsB (p : Fin 2000) (q : Fin 64) (k : Fin 256) :
    dot_S2000x256_S256x64_S2000x64_1_0_0_1_n_n.lhsIdx (ix2 p q) ((contrEquiv1 dot_S2000x256_S256x64_S2000x64_1_0_0_1_n_n 256 rfl rfl).symm k) = ix2 p k := by
  have hk := contrEquiv1_symm_val dot_S2000x256_S256x64_S2000x64_1_0_0_1_n_n 256 rfl rfl k
  funext a; apply Fin.ext
  match a with
  | ⟨0, _⟩ =>
    show (dot_S2000x256_S256x64_S2000x64_1_0_0_1_n_n.lhsIdx (ix2 p q) _ 0).val = p.val
    unfold DotDims.lhsIdx
    rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
    rfl
  | ⟨1, _⟩ => exact (dot_S2000x256_S256x64_S2000x64_1_0_0_1_n_n.lhsIdx_val_of_single rfl (ix2 p q) _).trans hk

/-- The right operand's index there is `(k, q)`. -/
theorem rhsB (p : Fin 2000) (q : Fin 64) (k : Fin 256) :
    dot_S2000x256_S256x64_S2000x64_1_0_0_1_n_n.rhsIdx (ix2 p q) ((contrEquiv1 dot_S2000x256_S256x64_S2000x64_1_0_0_1_n_n 256 rfl rfl).symm k) = ix2 k q := by
  have hk := contrEquiv1_symm_val dot_S2000x256_S256x64_S2000x64_1_0_0_1_n_n 256 rfl rfl k
  funext a; apply Fin.ext
  match a with
  | ⟨0, _⟩ => exact (dot_S2000x256_S256x64_S2000x64_1_0_0_1_n_n.rhsIdx_val_of_single rfl (ix2 p q) _).trans hk
  | ⟨1, _⟩ =>
    show (dot_S2000x256_S256x64_S2000x64_1_0_0_1_n_n.rhsIdx (ix2 p q) _ 1).val = q.val
    unfold DotDims.rhsIdx
    rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
    rfl

/-! ## The body's stages, named -/

section Stages
variable {F : FTy → Type} [FloatOps F]

/-- The activated convolution entries of a block, as the body computes them. -/
def actK (v0 : Vec F S2000x64 .bf16) (v3 : Vec F S2000x1 .f32) (v7 : Vec F S2000x64 .f32) (v10 : Vec F S1x64 .f32) : FVec F S2000x64 .f32 :=
  maximumf (addf (addf (shapeCast S2000x64 v7 shapeCasts_S2000x64_S2000x64)
      (mulf (extf .f32 (shapeCast S2000x64 v0 shapeCasts_S2000x64_S2000x64) bitsLt_bf16_f32)
        (broadcastTo S2000x64 (shapeCast S2000x1 v3 shapeCasts_S2000x1_S2000x1) broadcasts_S2000x1_S2000x64)))
      (broadcastTo S2000x64 (shapeCast S1x64 v10 shapeCasts_S1x64_S1x64) broadcasts_S1x64_S2000x64))
    (broadcast S2000x64 (Scalar.ofBits .f32 0x00000000#32))

/-- The hidden dense layer of a block. -/
def hidK (X : FVec F S2000x64 .f32) (v17 : Vec F S64x256 .f32) (v20 : Vec F S1x256 .f32) : FVec F S2000x256 .f32 :=
  addf (matmul dot_S2000x64_S64x256_S2000x256_1_0_0_1_n_n none (truncf .bf16 X bitsLt_bf16_f32) (truncf .bf16 v17 bitsLt_bf16_f32) (constant S2000x256 .f32 0x00000000#32))
    (broadcastTo S2000x256 (shapeCast S1x256 v20 shapeCasts_S1x256_S1x256) broadcasts_S1x256_S2000x256)

/-- The output dense layer of a block. -/
def logK (Y : FVec F S2000x256 .f32) (v25 : Vec F S256x64 .f32) (v28 : Vec F S1x64 .f32) : FVec F S2000x64 .f32 :=
  addf (matmul dot_S2000x256_S256x64_S2000x64_1_0_0_1_n_n none (truncf .bf16 Y bitsLt_bf16_f32) (truncf .bf16 v25 bitsLt_bf16_f32) (constant S2000x64 .f32 0x00000000#32))
    (broadcastTo S2000x64 (shapeCast S1x64 v28 shapeCasts_S1x64_S1x64) broadcasts_S1x64_S2000x64)

/-- A block of logits shifted by its rows' maxima. -/
def shiftK (Z : FVec F S2000x64 .f32) : FVec F S2000x64 .f32 :=
  subf Z (broadcastTo S2000x64 (shapeCast S2000x1 (maximumf (broadcast S2000 (Scalar.ofBits .f32 0xFF800000#32))
    (multiReduction .maximumf [1] S2000 Z 0xFF800000#32 reduces_S2000x64_S2000 (.inl rfl) rfl)) shapeCasts_S2000_S2000x1) broadcasts_S2000x1_S2000x64)

/-- The shifted block minus the logarithm of its rows' sums of exponentials. -/
def lsmK (S : FVec F S2000x64 .f32) : FVec F S2000x64 .f32 :=
  subf S (broadcastTo S2000x64 (log (shapeCast S2000x1 (multiReduction .add [1] S2000 (exp S) 0x00000000#32 reduces_S2000x64_S2000 (.inl rfl) rfl)
    shapeCasts_S2000_S2000x1)) broadcasts_S2000x1_S2000x64)

/-- The body's two stored-value terms are the named stages composed. -/
theorem pay2_eq (v0 : Vec F S2000x64 .bf16) (v3 : Vec F S2000x1 .f32) (v7 : Vec F S2000x64 .f32) (v10 : Vec F S1x64 .f32)
    (v17 : Vec F S64x256 .f32) (v20 : Vec F S1x256 .f32) (v25 : Vec F S256x64 .f32) (v28 : Vec F S1x64 .f32) :
    k2_pay1 (k2_pay2 v0 v3 v7 v10 v17 v20 v25 v28) = lsmK (shiftK (logK (hidK (actK v0 v3 v7 v10) v17 v20) v25 v28)) := rfl

end Stages

/-! ## Each stage at an entry, on the extended reals -/

/-- Entry `(p, k)` of a row of a block lifted over the reduced axis is `(p, k)`. -/
theorem lift_row (p : Fin 2000) (k : Fin 64) : reduces_S2000x64_S2000.lift (ix1 p) k = ix2 p k := by
  funext a; apply Fin.ext
  match a with
  | ⟨0, _⟩ => rfl
  | ⟨1, _⟩ => rfl

theorem actK_apply (v0 : Vec Ideal S2000x64 .bf16) (v3 : Vec Ideal S2000x1 .f32) (v7 : Vec Ideal S2000x64 .f32) (v10 : Vec Ideal S1x64 .f32)
    (p : Fin 2000) (k : Fin 64) :
    actK v0 v3 v7 v10 (ix2 p k) = max (v7 (ix2 p k) + v0 (ix2 p k) * v3 (ix2 p (0 : Fin 1)) + v10 (ix2 (0 : Fin 1) k)) zeroW := by
  unfold actK
  simp only [shapeCast_self]
  show FloatOps.maximumf (F := Ideal) (φ := .f32) (FloatOps.addf (FloatOps.addf (v7 (ix2 p k)) (FloatOps.mulf (v0 (ix2 p k))
      (broadcastTo S2000x64 v3 broadcasts_S2000x1_S2000x64 (ix2 p k)))) (broadcastTo S2000x64 v10 broadcasts_S1x64_S2000x64 (ix2 p k)))
      (Ideal.ofBits .f32 0x00000000#32) = _
  rw [broadcastTo_a1_ab_apply, broadcastTo_1b_ab_apply]
  rfl

theorem hidK_apply (X : FVec Ideal S2000x64 .f32) (v17 : Vec Ideal S64x256 .f32) (v20 : Vec Ideal S1x256 .f32) (p : Fin 2000) (j : Fin 256) :
    hidK X v17 v20 (ix2 p j) = (∑ k : Fin 64, X (ix2 p k) * v17 (ix2 k j)) + v20 (ix2 (0 : Fin 1) j) := by
  unfold hidK
  simp only [shapeCast_self]
  show FloatOps.addf (F := Ideal) (φ := .f32) (FloatOps.matmul (F := Ideal) dot_S2000x64_S64x256_S2000x256_1_0_0_1_n_n none _ _ (constant (F := Ideal) S2000x256 .f32 0x00000000#32) (ix2 p j))
      (broadcastTo S2000x256 v20 broadcasts_S1x256_S2000x256 (ix2 p j)) = _
  rw [Ideal.matmul_constant_zero_apply, ← Equiv.sum_comp (contrEquiv1 dot_S2000x64_S64x256_S2000x256_1_0_0_1_n_n 64 rfl rfl).symm, broadcastTo_1b_ab_apply]
  refine congrArg (· + v20 (ix2 (0 : Fin 1) j)) (Finset.sum_congr rfl fun k _ => ?_)
  rw [lhsA p j k, rhsA p j k]
  rfl

theorem logK_apply (Y : FVec Ideal S2000x256 .f32) (v25 : Vec Ideal S256x64 .f32) (v28 : Vec Ideal S1x64 .f32) (p : Fin 2000) (q : Fin 64) :
    logK Y v25 v28 (ix2 p q) = (∑ k : Fin 256, Y (ix2 p k) * v25 (ix2 k q)) + v28 (ix2 (0 : Fin 1) q) := by
  unfold logK
  simp only [shapeCast_self]
  show FloatOps.addf (F := Ideal) (φ := .f32) (FloatOps.matmul (F := Ideal) dot_S2000x256_S256x64_S2000x64_1_0_0_1_n_n none _ _ (constant (F := Ideal) S2000x64 .f32 0x00000000#32) (ix2 p q))
      (broadcastTo S2000x64 v28 broadcasts_S1x64_S2000x64 (ix2 p q)) = _
  rw [Ideal.matmul_constant_zero_apply, ← Equiv.sum_comp (contrEquiv1 dot_S2000x256_S256x64_S2000x64_1_0_0_1_n_n 256 rfl rfl).symm, broadcastTo_1b_ab_apply]
  refine congrArg (· + v28 (ix2 (0 : Fin 1) q)) (Finset.sum_congr rfl fun k _ => ?_)
  rw [lhsB p q k, rhsB p q k]
  rfl

/-- A row's maximum as the body takes it: the fold of `max` from minus infinity over the row's 64 entries. -/
theorem rowMaxK (Z : FVec Ideal S2000x64 .f32) (hφ : FKind.Formats .f32) (hacc : (0xFF800000#32 : BitVec 32) = FKind.maximumf.neutral .f32 hφ)
    (p : Fin 2000) :
    multiReduction .maximumf [1] S2000 Z 0xFF800000#32 reduces_S2000x64_S2000 hφ hacc (ix1 p)
      = (Finset.univ : Finset (Fin 64)).fold max ninfW (fun k => Z (ix2 p k)) :=
  (Ideal.multiReduction_maximumf_single Z _ reduces_S2000x64_S2000 hφ hacc (ix1 p)).trans
    (congrArg (fun f => (Finset.univ : Finset (Fin 64)).fold max ninfW f) (funext fun k => congrArg Z (lift_row p k)))

/-- A row's sum as the body takes it. -/
theorem rowSumK (E : FVec Ideal S2000x64 .f32) (hφ : FKind.Formats .f32) (hacc : (0x00000000#32 : BitVec 32) = FKind.add.neutral .f32 hφ)
    (p : Fin 2000) :
    multiReduction .add [1] S2000 E 0x00000000#32 reduces_S2000x64_S2000 hφ hacc (ix1 p) = ∑ k : Fin 64, E (ix2 p k) :=
  (Ideal.multiReduction_add_single E _ reduces_S2000x64_S2000 hφ hacc (ix1 p)).trans
    (Finset.sum_congr rfl fun k _ => congrArg E (lift_row p k))

theorem shiftK_apply (Z : FVec Ideal S2000x64 .f32) (p : Fin 2000) (q : Fin 64) :
    shiftK Z (ix2 p q) = Z (ix2 p q) - max ninfW ((Finset.univ : Finset (Fin 64)).fold max ninfW (fun k => Z (ix2 p k))) := by
  unfold shiftK
  show FloatOps.subf (F := Ideal) (φ := .f32) (Z (ix2 p q)) (broadcastTo S2000x64 (shapeCast S2000x1 (maximumf (F := Ideal) (broadcast S2000 (Scalar.ofBits .f32 0xFF800000#32))
    (multiReduction .maximumf [1] S2000 Z 0xFF800000#32 reduces_S2000x64_S2000 (.inl rfl) rfl)) shapeCasts_S2000_S2000x1) broadcasts_S2000x1_S2000x64 (ix2 p q)) = _
  rw [broadcastTo_a1_ab_apply, shapeCast_a_a1_apply]
  show Z (ix2 p q) - max ninfW (multiReduction .maximumf [1] S2000 Z 0xFF800000#32 reduces_S2000x64_S2000 (.inl rfl) rfl (ix1 p)) = _
  exact congrArg (fun m => Z (ix2 p q) - max ninfW m) (rowMaxK Z _ _ p)

theorem lsmK_apply (S : FVec Ideal S2000x64 .f32) (p : Fin 2000) (q : Fin 64) :
    lsmK S (ix2 p q) = S (ix2 p q) - Ideal.log (∑ k : Fin 64, Ideal.exp (S (ix2 p k))) := by
  unfold lsmK
  show FloatOps.subf (F := Ideal) (φ := .f32) (S (ix2 p q)) (broadcastTo S2000x64 (log (F := Ideal) (shapeCast S2000x1
    (multiReduction .add [1] S2000 (exp (F := Ideal) S) 0x00000000#32 reduces_S2000x64_S2000 (.inl rfl) rfl) shapeCasts_S2000_S2000x1)) broadcasts_S2000x1_S2000x64 (ix2 p q)) = _
  rw [broadcastTo_a1_ab_apply]
  show S (ix2 p q) - Ideal.log (shapeCast S2000x1 (multiReduction .add [1] S2000 (exp (F := Ideal) S) 0x00000000#32 reduces_S2000x64_S2000 (.inl rfl) rfl)
    shapeCasts_S2000_S2000x1 (ix2 p (0 : Fin 1))) = _
  rw [shapeCast_a_a1_apply]
  exact congrArg (fun s => S (ix2 p q) - Ideal.log s) (rowSumK (exp (F := Ideal) S) _ _ p)

/-- The body's stored value at entry `(p, q)` of a block is the last stage of row `p` of the blocks. -/
theorem pay2_row (v0 : Vec Ideal S2000x64 .bf16) (v3 : Vec Ideal S2000x1 .f32) (v7 : Vec Ideal S2000x64 .f32) (v10 : Vec Ideal S1x64 .f32)
    (v17 : Vec Ideal S64x256 .f32) (v20 : Vec Ideal S1x256 .f32) (v25 : Vec Ideal S256x64 .f32) (v28 : Vec Ideal S1x64 .f32)
    (p : Fin 2000) (q : Fin 64) :
    k2_pay1 (k2_pay2 v0 v3 v7 v10 v17 v20 v25 v28) (ix2 p q)
      = headRow (fun k => v7 (ix2 p k)) (fun k => v0 (ix2 p k)) (v3 (ix2 p (0 : Fin 1))) (fun i => v10 (ix2 (0 : Fin 1) (i 0)))
          v17 (fun i => v20 (ix2 (0 : Fin 1) (i 0))) v25 (fun i => v28 (ix2 (0 : Fin 1) (i 0))) q := by
  rw [pay2_eq, lsmK_apply]
  simp only [shiftK_apply, logK_apply, hidK_apply, actK_apply]
  rfl

variable (V : (c : Dev nD) → (b : Ref sig .tc) → Buf (Elt Ideal) ((c : Thread nD τ).loc b))

/-! The printed index maps over the grid, window by window: a row-blocked window's block index is `(t, 0)`, a whole
    window's `(0, 0)`. -/

set_option maxHeartbeats 4000000 in
theorem idx2_0 : ∀ t : Fin cfg2.N, win2_0.index t (0 : Fin 2) = t.val ∧ win2_0.index t (1 : Fin 2) = 0 :=
  (by decide +kernel : ∀ t : Fin grid2.N, _)
set_option maxHeartbeats 4000000 in
theorem idx2_1 : ∀ t : Fin cfg2.N, win2_1.index t (0 : Fin 2) = t.val ∧ win2_1.index t (1 : Fin 2) = 0 :=
  (by decide +kernel : ∀ t : Fin grid2.N, _)
set_option maxHeartbeats 4000000 in
theorem idx2_2 : ∀ t : Fin cfg2.N, win2_2.index t (0 : Fin 2) = 0 ∧ win2_2.index t (1 : Fin 2) = 0 :=
  (by decide +kernel : ∀ t : Fin grid2.N, _)
set_option maxHeartbeats 4000000 in
theorem idx2_3 : ∀ t : Fin cfg2.N, win2_3.index t (0 : Fin 2) = t.val ∧ win2_3.index t (1 : Fin 2) = 0 :=
  (by decide +kernel : ∀ t : Fin grid2.N, _)
set_option maxHeartbeats 4000000 in
theorem idx2_4 : ∀ t : Fin cfg2.N, win2_4.index t (0 : Fin 2) = 0 ∧ win2_4.index t (1 : Fin 2) = 0 :=
  (by decide +kernel : ∀ t : Fin grid2.N, _)
set_option maxHeartbeats 4000000 in
theorem idx2_5 : ∀ t : Fin cfg2.N, win2_5.index t (0 : Fin 2) = 0 ∧ win2_5.index t (1 : Fin 2) = 0 :=
  (by decide +kernel : ∀ t : Fin grid2.N, _)
set_option maxHeartbeats 4000000 in
theorem idx2_6 : ∀ t : Fin cfg2.N, win2_6.index t (0 : Fin 2) = 0 ∧ win2_6.index t (1 : Fin 2) = 0 :=
  (by decide +kernel : ∀ t : Fin grid2.N, _)
set_option maxHeartbeats 4000000 in
theorem idx2_7 : ∀ t : Fin cfg2.N, win2_7.index t (0 : Fin 2) = 0 ∧ win2_7.index t (1 : Fin 2) = 0 :=
  (by decide +kernel : ∀ t : Fin grid2.N, _)
set_option maxHeartbeats 4000000 in
theorem idx2_8 : ∀ t : Fin cfg2.N, win2_8.index t (0 : Fin 2) = t.val ∧ win2_8.index t (1 : Fin 2) = 0 :=
  (by decide +kernel : ∀ t : Fin grid2.N, _)

/-- A whole-array window's block is the array: its embedding is the identity. -/
theorem emb_whole_2 (t : Fin cfg2.N) (y : S1x64.Idx) : ((cfg2.win 2).blk t).view.emb y = y := by
  obtain ⟨g0, g1⟩ := idx2_2 t
  funext a; apply Fin.ext
  have h0 : (y 0).val < 1 := (y 0).isLt
  match a with
  | ⟨0, _⟩ => show win2_2.index t (0 : Fin 2) * 1 + 1 * (y 0).val = (y 0).val; omega
  | ⟨1, _⟩ => show win2_2.index t (1 : Fin 2) * 64 + 1 * (y 1).val = (y 1).val; omega
theorem emb_whole_4 (t : Fin cfg2.N) (y : S64x256.Idx) : ((cfg2.win 4).blk t).view.emb y = y := by
  obtain ⟨g0, g1⟩ := idx2_4 t
  funext a; apply Fin.ext
  match a with
  | ⟨0, _⟩ => show win2_4.index t (0 : Fin 2) * 64 + 1 * (y 0).val = (y 0).val; omega
  | ⟨1, _⟩ => show win2_4.index t (1 : Fin 2) * 256 + 1 * (y 1).val = (y 1).val; omega
theorem emb_whole_5 (t : Fin cfg2.N) (y : S1x256.Idx) : ((cfg2.win 5).blk t).view.emb y = y := by
  obtain ⟨g0, g1⟩ := idx2_5 t
  funext a; apply Fin.ext
  match a with
  | ⟨0, _⟩ => show win2_5.index t (0 : Fin 2) * 1 + 1 * (y 0).val = (y 0).val; omega
  | ⟨1, _⟩ => show win2_5.index t (1 : Fin 2) * 256 + 1 * (y 1).val = (y 1).val; omega
theorem emb_whole_6 (t : Fin cfg2.N) (y : S256x64.Idx) : ((cfg2.win 6).blk t).view.emb y = y := by
  obtain ⟨g0, g1⟩ := idx2_6 t
  funext a; apply Fin.ext
  match a with
  | ⟨0, _⟩ => show win2_6.index t (0 : Fin 2) * 256 + 1 * (y 0).val = (y 0).val; omega
  | ⟨1, _⟩ => show win2_6.index t (1 : Fin 2) * 64 + 1 * (y 1).val = (y 1).val; omega
theorem emb_whole_7 (t : Fin cfg2.N) (y : S1x64.Idx) : ((cfg2.win 7).blk t).view.emb y = y := by
  obtain ⟨g0, g1⟩ := idx2_7 t
  funext a; apply Fin.ext
  match a with
  | ⟨0, _⟩ => show win2_7.index t (0 : Fin 2) * 1 + 1 * (y 0).val = (y 0).val; omega
  | ⟨1, _⟩ => show win2_7.index t (1 : Fin 2) * 64 + 1 * (y 1).val = (y 1).val; omega

/-- A bias vector reshaped to one row, read back along the row, is the vector. -/
theorem bias_row {n : Nat} (b : (⟨1, ![n]⟩ : Shape).Idx → EReal) (h : (⟨1, ![n]⟩ : Shape).ShapeCasts ⟨2, ![1, n]⟩) :
    (fun i : (⟨1, ![n]⟩ : Shape).Idx => shapeCast ⟨2, ![1, n]⟩ b h (ix2 (0 : Fin 1) (i 0))) = b :=
  funext fun i => (shapeCast_a_1a_apply b h 0 (i 0)).trans (congrArg b (eq_ix1 i).symm)

set_option maxHeartbeats 4000000 in
/-- What point `t` writes back is block `t` of the last stage of the arrays as the region finds them. -/
theorem flushed2_eq (c : Dev nD) (b2 : S64.Idx → EReal) (b3 : S256.Idx → EReal) (b4 : S64.Idx → EReal)
    (hB2 : V c main_v73 = shapeCast S1x64 b2 shapeCasts_S64_S1x64) (hB3 : V c main_v74 = shapeCast S1x256 b3 shapeCasts_S256_S1x256)
    (hB4 : V c main_v75 = shapeCast S1x64 b4 shapeCasts_S64_S1x64) (t : Fin cfg2.N) :
    (dat2 V c).flushed 8 t = ((cfg2.win 8).blk t).view.read (Elt Ideal)
      (head (V c main_v72) (V c main_v54) (V c main_v17) b2 (V c main_arg6) b3 (V c main_arg8) b4) := by
  show (cfg2.win 8).cut (grid2.coords t) ((dat2 V c).after 8 t) = _
  rw [after2_8]
  unfold out2_8
  rw [View.canon_unit_zero hz2'']
  simp only [View.ld_unit_zero (S := S2000x64) hz2'', View.ld_unit_zero (S := S2000x1) hz2'', View.ld_unit_zero (S := S1x64) hz2'',
    View.ld_unit_zero (S := S64x256) hz2'', View.ld_unit_zero (S := S1x256) hz2'', View.ld_unit_zero (S := S256x64) hz2'']
  obtain ⟨a0, a1⟩ := idx2_0 t
  obtain ⟨h0, h1⟩ := idx2_1 t
  obtain ⟨d0, d1⟩ := idx2_3 t
  obtain ⟨o0, o1⟩ := idx2_8 t
  funext j
  obtain ⟨p, q, rfl⟩ : ∃ (p : Fin 2000) (q : Fin 64), j = ix2 p q := ⟨j 0, j 1, eq_ix2 j⟩
  show k2_pay1 (k2_pay2 (iblk2 V c 1 t) (iblk2 V c 3 t) (iblk2 V c 0 t) (iblk2 V c 2 t) (iblk2 V c 4 t) (iblk2 V c 5 t) (iblk2 V c 6 t) (iblk2 V c 7 t)) (ix2 p q)
    = head (V c main_v72) (V c main_v54) (V c main_v17) b2 (V c main_arg6) b3 (V c main_arg8) b4 (((cfg2.win 8).blk t).view.emb (ix2 p q))
  refine (pay2_row _ _ _ _ _ _ _ _ p q).trans ?_
  refine Eq.trans ?_ (head_row _ _ _ _ _ _ _ _ _).symm
  have eA : (fun k : Fin 64 => iblk2 V c 0 t (ix2 p k)) = fun k => (V c main_v72 : S100000x64.Idx → EReal) (ix2 ((((cfg2.win 8).blk t).view.emb (ix2 p q)) 0) k) := by
    funext k
    show V c main_v72 (((cfg2.win 0).blk t).view.emb (ix2 p k)) = _
    refine congrArg (V c main_v72) (funext fun a => Fin.ext ?_)
    match a with
    | ⟨0, _⟩ => show win2_0.index t (0 : Fin 2) * 2000 + 1 * p.val = win2_8.index t (0 : Fin 2) * 2000 + 1 * p.val; omega
    | ⟨1, _⟩ => show win2_0.index t (1 : Fin 2) * 64 + 1 * k.val = k.val; omega
  have eH : (fun k : Fin 64 => iblk2 V c 1 t (ix2 p k)) = fun k => (V c main_v54 : S100000x64.Idx → EReal) (ix2 ((((cfg2.win 8).blk t).view.emb (ix2 p q)) 0) k) := by
    funext k
    show V c main_v54 (((cfg2.win 1).blk t).view.emb (ix2 p k)) = _
    refine congrArg (V c main_v54) (funext fun a => Fin.ext ?_)
    match a with
    | ⟨0, _⟩ => show win2_1.index t (0 : Fin 2) * 2000 + 1 * p.val = win2_8.index t (0 : Fin 2) * 2000 + 1 * p.val; omega
    | ⟨1, _⟩ => show win2_1.index t (1 : Fin 2) * 64 + 1 * k.val = k.val; omega
  have eD : iblk2 V c 3 t (ix2 p (0 : Fin 1)) = (V c main_v17 : S100000x1.Idx → EReal) (ix2 ((((cfg2.win 8).blk t).view.emb (ix2 p q)) 0) (0 : Fin 1)) := by
    show V c main_v17 (((cfg2.win 3).blk t).view.emb (ix2 p (0 : Fin 1))) = _
    refine congrArg (V c main_v17) (funext fun a => Fin.ext ?_)
    match a with
    | ⟨0, _⟩ => show win2_3.index t (0 : Fin 2) * 2000 + 1 * p.val = win2_8.index t (0 : Fin 2) * 2000 + 1 * p.val; omega
    | ⟨1, _⟩ => show win2_3.index t (1 : Fin 2) * 1 + 1 * 0 = 0; omega
  have eB2 : (fun i : S64.Idx => iblk2 V c 2 t (ix2 (0 : Fin 1) (i 0))) = b2 := by
    refine Eq.trans (funext fun i => ?_) (bias_row b2 shapeCasts_S64_S1x64)
    show V c main_v73 (((cfg2.win 2).blk t).view.emb (ix2 (0 : Fin 1) (i 0))) = _
    rw [emb_whole_2, hB2]
  have eB3 : (fun i : S256.Idx => iblk2 V c 5 t (ix2 (0 : Fin 1) (i 0))) = b3 := by
    refine Eq.trans (funext fun i => ?_) (bias_row b3 shapeCasts_S256_S1x256)
    show V c main_v74 (((cfg2.win 5).blk t).view.emb (ix2 (0 : Fin 1) (i 0))) = _
    rw [emb_whole_5, hB3]
  have eB4 : (fun i : S64.Idx => iblk2 V c 7 t (ix2 (0 : Fin 1) (i 0))) = b4 := by
    refine Eq.trans (funext fun i => ?_) (bias_row b4 shapeCasts_S64_S1x64)
    show V c main_v75 (((cfg2.win 7).blk t).view.emb (ix2 (0 : Fin 1) (i 0))) = _
    rw [emb_whole_7, hB4]
  have eW3 : iblk2 V c 4 t = (V c main_arg6 : S64x256.Idx → EReal) := by
    funext y
    show V c main_arg6 (((cfg2.win 4).blk t).view.emb y) = _
    rw [emb_whole_4]
  have eW4 : iblk2 V c 6 t = (V c main_arg8 : S256x64.Idx → EReal) := by
    funext y
    show V c main_arg8 (((cfg2.win 6).blk t).view.emb y) = _
    rw [emb_whole_6]
  have eq : q = (((cfg2.win 8).blk t).view.emb (ix2 p q)) 1 := by
    apply Fin.ext
    show q.val = win2_8.index t (1 : Fin 2) * 64 + 1 * q.val
    omega
  rw [eA, eH, eD, eB2, eB3, eB4, eW3, eW4]
  exact congrArg _ eq

/-- An index of the result array is in point `t`'s block iff each coordinate is in the block's range. -/
theorem mem_blk2 (t : Fin cfg2.N) (i : S100000x64.Idx) :
    i ∈ ((cfg2.win 8).blk t).view.set ↔ ∀ a : Fin 2, win2_8.index t a * S2000x64.size a ≤ (i a).val ∧ (i a).val < win2_8.index t a * S2000x64.size a + S2000x64.size a := by
  show i ∈ ((View.whole main_v76).slice (win2_8.rect t)).set ↔ _
  rw [View.set_slice_whole, Rect.mem_set_unit]
  exact Iff.rfl

/-- Row `r` lies in the block of point `r / 2000`. -/
theorem cover2 (i : S100000x64.Idx) :
    ∃ t : Fin cfg2.N, (cfg2.win 8).flush t = true ∧ i ∈ ((cfg2.win 8).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨o0, o1⟩ := idx2_8 t
  have o0' : win2_8.index t (0 : Fin 2) = (i 0).val / 2000 := o0
  refine ⟨t, flush2_8 t, ?_⟩
  rw [mem_blk2]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 64 ≤ (i 1).val ∧ (i 1).val < win2_8.index t (1 : Fin 2) * 64 + 64; omega

/-- The third region's result array after the run: the last stage of the arrays it was entered from. -/
theorem final2 (c : Dev nD) (b2 : S64.Idx → EReal) (b3 : S256.Idx → EReal) (b4 : S64.Idx → EReal)
    (hB2 : V c main_v73 = shapeCast S1x64 b2 shapeCasts_S64_S1x64) (hB3 : V c main_v74 = shapeCast S1x256 b3 shapeCasts_S256_S1x256)
    (hB4 : V c main_v75 = shapeCast S1x64 b4 shapeCasts_S64_S1x64) :
    (dat2 V c).arrAt 8 cfg2.N = head (V c main_v72) (V c main_v54) (V c main_v17) b2 (V c main_arg6) b3 (V c main_arg8) b4 :=
  (dat2 V c).arrAt_eq_of_cover 8 _ (fun t _ => flushed2_eq V c b2 b3 b4 hB2 hB3 hB4 t) cover2

end Cert.KernelIdeal.Hand

end
-- ==== Proof.HostK.lean ====
/-
  The idealized kernel program's host operations, stretch by stretch, read as the reference's stage functions: the
  index normalisation, the degrees, the self weights and the edge weights before the first region; the normalised
  aggregation of the first region's rows over the edges before the second; the same aggregation of the second region's
  rows before the third. On the extended reals a change of float format is the identity, so the gathered rows widened
  from the narrow format are the rows themselves; the reference computes the degrees and the edge weights a second
  time for its second layer, by the same operations of the same argument, and the kernel program reuses the first.
-/
import proofs.«147519_j74242804678709_2_alg».proof.Proof.Gen.KernelIdeal.Launch
import proofs.«147519_j74242804678709_2_alg».proof.Proof.RefStages
import Idealize.ShloMosaic.Lib.StableHlo.Run

set_option maxRecDepth 16384

noncomputable section

namespace Cert.KernelIdeal.Hand

open Cert.KernelIdeal Cert.KernelIdeal.Gen Cert.ReferenceIdeal.ReadP
open Idealize.ShloMosaic Idealize.ShloMosaic.TcCoe Idealize.SL.Sem Idealize.ShloMosaic.StableHlo

/-! ## The reference's second computation of the degrees and weights is its first -/

theorem second_edge_weights (x1 : (⟨Cert.ReferenceIdeal.S2x1600000, .i32⟩ : BufTy).Contents (Elt Ideal)) : val_main_v95 (F := Ideal) x1 = val_main_v40 (F := Ideal) x1 := rfl
theorem second_self_weights (x1 : (⟨Cert.ReferenceIdeal.S2x1600000, .i32⟩ : BufTy).Contents (Elt Ideal)) : val_main_v106 (F := Ideal) x1 = val_main_v51 (F := Ideal) x1 := rfl

variable (W : Valuation τ sig (Elt Ideal))

/-! ## Before the first region -/

theorem K0_v1 : after (hostOps0 (F := Ideal)) W (Proc.devRef .tc main_v1) = val_main_v1 (F := Ideal) (W (Proc.devRef .tc main_arg1)) := by
  after_results_simp <;> rfl
theorem K0_v3 : after (hostOps0 (F := Ideal)) W (Proc.devRef .tc main_v3) = val_main_v3 (F := Ideal) (W (Proc.devRef .tc main_arg1)) := by
  after_results_simp <;> rfl
theorem K0_v17 : after (hostOps0 (F := Ideal)) W (Proc.devRef .tc main_v17) = val_main_v51 (F := Ideal) (W (Proc.devRef .tc main_arg1)) := by
  after_results_simp <;> rfl
theorem K0_v33 : after (hostOps0 (F := Ideal)) W (Proc.devRef .tc main_v33) = val_main_v40 (F := Ideal) (W (Proc.devRef .tc main_arg1)) := by
  after_results_simp <;> rfl
theorem K0_keeps_main_arg0 : after (hostOps0 (F := Ideal)) W (Proc.devRef .tc main_arg0) = W (Proc.devRef .tc main_arg0) := by
  after_results_simp <;> rfl
theorem K0_keeps_main_arg2 : after (hostOps0 (F := Ideal)) W (Proc.devRef .tc main_arg2) = W (Proc.devRef .tc main_arg2) := by
  after_results_simp <;> rfl
theorem K0_keeps_main_arg3 : after (hostOps0 (F := Ideal)) W (Proc.devRef .tc main_arg3) = W (Proc.devRef .tc main_arg3) := by
  after_results_simp <;> rfl
theorem K0_keeps_main_arg4 : after (hostOps0 (F := Ideal)) W (Proc.devRef .tc main_arg4) = W (Proc.devRef .tc main_arg4) := by
  after_results_simp <;> rfl
theorem K0_keeps_main_arg5 : after (hostOps0 (F := Ideal)) W (Proc.devRef .tc main_arg5) = W (Proc.devRef .tc main_arg5) := by
  after_results_simp <;> rfl
theorem K0_keeps_main_arg6 : after (hostOps0 (F := Ideal)) W (Proc.devRef .tc main_arg6) = W (Proc.devRef .tc main_arg6) := by
  after_results_simp <;> rfl
theorem K0_keeps_main_arg7 : after (hostOps0 (F := Ideal)) W (Proc.devRef .tc main_arg7) = W (Proc.devRef .tc main_arg7) := by
  after_results_simp <;> rfl
theorem K0_keeps_main_arg8 : after (hostOps0 (F := Ideal)) W (Proc.devRef .tc main_arg8) = W (Proc.devRef .tc main_arg8) := by
  after_results_simp <;> rfl
theorem K0_keeps_main_arg9 : after (hostOps0 (F := Ideal)) W (Proc.devRef .tc main_arg9) = W (Proc.devRef .tc main_arg9) := by
  after_results_simp <;> rfl

/-! ## Between the first and the second region -/

theorem K1_v52 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal))
    (h1 : W (Proc.devRef .tc main_v1) = val_main_v1 (F := Ideal) x1) (h3 : W (Proc.devRef .tc main_v3) = val_main_v3 (F := Ideal) x1)
    (h33 : W (Proc.devRef .tc main_v33) = val_main_v40 (F := Ideal) x1) (h34 : W (Proc.devRef .tc main_v34) = val_main_v4 (F := Ideal) x0 x2) :
    after (hostOps1 (F := Ideal)) W (Proc.devRef .tc main_v52) = val_main_v49 (F := Ideal) x0 x1 x2 := by
  after_results_simp
  rw [h1, h3, h33, h34]
  rfl
theorem K1_v53 : after (hostOps1 (F := Ideal)) W (Proc.devRef .tc main_v53) = shapeCast S1x64 (W (Proc.devRef .tc main_arg3)) shapeCasts_S64_S1x64 := by
  after_results_simp <;> rfl
theorem K1_keeps_main_v1 : after (hostOps1 (F := Ideal)) W (Proc.devRef .tc main_v1) = W (Proc.devRef .tc main_v1) := by
  after_results_simp <;> rfl
theorem K1_keeps_main_v3 : after (hostOps1 (F := Ideal)) W (Proc.devRef .tc main_v3) = W (Proc.devRef .tc main_v3) := by
  after_results_simp <;> rfl
theorem K1_keeps_main_v17 : after (hostOps1 (F := Ideal)) W (Proc.devRef .tc main_v17) = W (Proc.devRef .tc main_v17) := by
  after_results_simp <;> rfl
theorem K1_keeps_main_v33 : after (hostOps1 (F := Ideal)) W (Proc.devRef .tc main_v33) = W (Proc.devRef .tc main_v33) := by
  after_results_simp <;> rfl
theorem K1_keeps_main_v34 : after (hostOps1 (F := Ideal)) W (Proc.devRef .tc main_v34) = W (Proc.devRef .tc main_v34) := by
  after_results_simp <;> rfl
theorem K1_keeps_main_arg4 : after (hostOps1 (F := Ideal)) W (Proc.devRef .tc main_arg4) = W (Proc.devRef .tc main_arg4) := by
  after_results_simp <;> rfl
theorem K1_keeps_main_arg5 : after (hostOps1 (F := Ideal)) W (Proc.devRef .tc main_arg5) = W (Proc.devRef .tc main_arg5) := by
  after_results_simp <;> rfl
theorem K1_keeps_main_arg6 : after (hostOps1 (F := Ideal)) W (Proc.devRef .tc main_arg6) = W (Proc.devRef .tc main_arg6) := by
  after_results_simp <;> rfl
theorem K1_keeps_main_arg7 : after (hostOps1 (F := Ideal)) W (Proc.devRef .tc main_arg7) = W (Proc.devRef .tc main_arg7) := by
  after_results_simp <;> rfl
theorem K1_keeps_main_arg8 : after (hostOps1 (F := Ideal)) W (Proc.devRef .tc main_arg8) = W (Proc.devRef .tc main_arg8) := by
  after_results_simp <;> rfl
theorem K1_keeps_main_arg9 : after (hostOps1 (F := Ideal)) W (Proc.devRef .tc main_arg9) = W (Proc.devRef .tc main_arg9) := by
  after_results_simp <;> rfl

/-! ## Between the second and the third region -/

theorem K2_v72 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal))
    (h1 : W (Proc.devRef .tc main_v1) = val_main_v1 (F := Ideal) x1) (h3 : W (Proc.devRef .tc main_v3) = val_main_v3 (F := Ideal) x1)
    (h33 : W (Proc.devRef .tc main_v33) = val_main_v95 (F := Ideal) x1) (h54 : W (Proc.devRef .tc main_v54) = val_main_v59 (F := Ideal) x0 x1 x2 x3 x4) :
    after (hostOps2 (F := Ideal)) W (Proc.devRef .tc main_v72) = val_main_v104 (F := Ideal) x0 x1 x2 x3 x4 := by
  after_results_simp
  rw [h1, h3, h33, h54]
  rfl
theorem K2_v73 : after (hostOps2 (F := Ideal)) W (Proc.devRef .tc main_v73) = shapeCast S1x64 (W (Proc.devRef .tc main_arg5)) shapeCasts_S64_S1x64 := by
  after_results_simp <;> rfl
theorem K2_v74 : after (hostOps2 (F := Ideal)) W (Proc.devRef .tc main_v74) = shapeCast S1x256 (W (Proc.devRef .tc main_arg7)) shapeCasts_S256_S1x256 := by
  after_results_simp <;> rfl
theorem K2_v75 : after (hostOps2 (F := Ideal)) W (Proc.devRef .tc main_v75) = shapeCast S1x64 (W (Proc.devRef .tc main_arg9)) shapeCasts_S64_S1x64 := by
  after_results_simp <;> rfl
theorem K2_keeps_main_v17 : after (hostOps2 (F := Ideal)) W (Proc.devRef .tc main_v17) = W (Proc.devRef .tc main_v17) := by
  after_results_simp <;> rfl
theorem K2_keeps_main_v54 : after (hostOps2 (F := Ideal)) W (Proc.devRef .tc main_v54) = W (Proc.devRef .tc main_v54) := by
  after_results_simp <;> rfl
theorem K2_keeps_main_arg6 : after (hostOps2 (F := Ideal)) W (Proc.devRef .tc main_arg6) = W (Proc.devRef .tc main_arg6) := by
  after_results_simp <;> rfl
theorem K2_keeps_main_arg8 : after (hostOps2 (F := Ideal)) W (Proc.devRef .tc main_arg8) = W (Proc.devRef .tc main_arg8) := by
  after_results_simp <;> rfl

end Cert.KernelIdeal.Hand

end
-- ==== Proof.RefIsSpec.lean ====
/-
  The reference program's stages, read entry by entry, are the layers of the graph-convolution network:
  the first matrix product, the second layer's features, and the last stage (activation, two dense
  layers, row-wise log-softmax). The scatter stages are left as they are: they occur as the same term
  on both sides of each equation.
-/
import proofs.«147519_j74242804678709_2_alg».proof.Proof.Spec
import proofs.«147519_j74242804678709_2_alg».proof.Proof.RefStages
import Idealize.ShloMosaic.PureOps.Ideal.Laws
import Idealize.ShloMosaic.PureOps.Reduce
import Idealize.ShloMosaic.Lib.Pipeline.Value
import Idealize.ShloMosaic.Lib.ValueIdx

noncomputable section

namespace Cert.Gcn.Ref

open Cert.ReferenceIdeal Cert.ReferenceIdeal.Gen Cert.ReferenceIdeal.ReadP Cert.Gcn Idealize.ShloMosaic Idealize.ShloMosaic.ValueIdx

/-! ## The first matrix product -/

/-- The first matrix product: entry `(r, q)` is the sum over `k` of `x(r,k) · w(k,q)`. -/
theorem v4_eq (x0 : (⟨S100000x128, .f32⟩ : BufTy).Contents (Elt Ideal)) (x2 : (⟨S128x64, .f32⟩ : BufTy).Contents (Elt Ideal)) :
    val_main_v4 (F := Ideal) x0 x2 = lin128 x0 x2 := by
  funext i
  refine (val_main_v4_apply x0 x2 i).trans ?_
  unfold lin128
  refine Finset.sum_congr rfl fun k _ => ?_
  have hl : lidx_main_v4 i k = ix2 (i 0) k := funext fun a => match a with | ⟨0, _⟩ => rfl | ⟨1, _⟩ => rfl
  have hr : ridx_main_v4 i k = ix2 k (i 1) := funext fun a => match a with | ⟨0, _⟩ => rfl | ⟨1, _⟩ => rfl
  rw [hl, hr]
  rfl

/-! ## The first convolution's activation and the second layer's features -/

/-- The first convolution's output after ReLU: the aggregate plus the node's own row times its self weight plus the bias, against the zero word's value. The self weight column is broadcast along the row, the bias along the column. -/
theorem v58_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) :
    val_main_v58 (F := Ideal) x0 x1 x2 x3
      = act (val_main_v49 (F := Ideal) x0 x1 x2) (val_main_v4 (F := Ideal) x0 x2) (val_main_v51 (F := Ideal) x1) x3 := by
  funext j
  have hD : val_main_v52 (F := Ideal) x1 j = val_main_v51 (F := Ideal) x1 (ix2 (j 0) 0) :=
    (val_main_v52_apply x1 j).trans (congrArg _ (funext fun a => match a with | ⟨0, _⟩ => rfl | ⟨1, _⟩ => rfl))
  have hB : val_main_v56 (F := Ideal) x3 j = x3 (ix1 (j 1)) :=
    ((val_main_v56_apply x3 j).trans (val_main_v55_apply x3 _)).trans (congrArg x3 (funext fun a => match a with | ⟨0, _⟩ => rfl))
  have h0 : val_main_call0_v0 (F := Ideal) j = zeroW := val_main_call0_v0_apply j
  unfold act
  rw [val_main_v58_apply, val_main_v57_apply, val_main_v54_apply, val_main_v53_apply, hD, hB, h0]
  rfl

/-- The second layer's features: the activation times the second weight matrix. -/
theorem v59_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    val_main_v59 (F := Ideal) x0 x1 x2 x3 x4
      = layer2 (val_main_v49 (F := Ideal) x0 x1 x2) (val_main_v4 (F := Ideal) x0 x2) (val_main_v51 (F := Ideal) x1) x3 x4 := by
  funext i
  refine (val_main_v59_apply x0 x1 x2 x3 x4 i).trans ?_
  rw [v58_eq]
  unfold layer2 lin64
  refine Finset.sum_congr rfl fun k _ => ?_
  have hl : lidx_main_v59 i k = ix2 (i 0) k := funext fun a => match a with | ⟨0, _⟩ => rfl | ⟨1, _⟩ => rfl
  have hr : ridx_main_v59 i k = ix2 k (i 1) := funext fun a => match a with | ⟨0, _⟩ => rfl | ⟨1, _⟩ => rfl
  rw [hl, hr]
  rfl

/-! ## The last stage -/

/-- The second convolution's output after ReLU, read the same way. -/
theorem v113_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v113 (F := Ideal) x0 x1 x2 x3 x4 x5
      = act (val_main_v104 (F := Ideal) x0 x1 x2 x3 x4) (val_main_v59 (F := Ideal) x0 x1 x2 x3 x4) (val_main_v106 (F := Ideal) x1) x5 := by
  funext j
  have hD : val_main_v107 (F := Ideal) x1 j = val_main_v106 (F := Ideal) x1 (ix2 (j 0) 0) :=
    (val_main_v107_apply x1 j).trans (congrArg _ (funext fun a => match a with | ⟨0, _⟩ => rfl | ⟨1, _⟩ => rfl))
  have hB : val_main_v111 (F := Ideal) x5 j = x5 (ix1 (j 1)) :=
    ((val_main_v111_apply x5 j).trans (val_main_v110_apply x5 _)).trans (congrArg x5 (funext fun a => match a with | ⟨0, _⟩ => rfl))
  have h0 : val_main_call1_v0 (F := Ideal) j = zeroW := val_main_call1_v0_apply j
  unfold act
  rw [val_main_v113_apply, val_main_v112_apply, val_main_v109_apply, val_main_v108_apply, hD, hB, h0]
  rfl

/-- The hidden dense layer: a row against a column of the weight matrix, plus the bias broadcast along the column. -/
theorem v117_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal)) :
    val_main_v117 (F := Ideal) x0 x1 x2 x3 x4 x5 x6 x7 = hidden (val_main_v113 (F := Ideal) x0 x1 x2 x3 x4 x5) x6 x7 := by
  funext i
  have hB : val_main_v116 (F := Ideal) x7 i = x7 (ix1 (i 1)) :=
    ((val_main_v116_apply x7 i).trans (val_main_v115_apply x7 _)).trans (congrArg x7 (funext fun a => match a with | ⟨0, _⟩ => rfl))
  unfold hidden
  rw [val_main_v117_apply, val_main_v114_apply, hB, Ideal.addf_def]
  refine congrArg (· + x7 (ix1 (i 1))) (Finset.sum_congr rfl fun k _ => ?_)
  have hl : lidx_main_v114 i k = ix2 (i 0) k := funext fun a => match a with | ⟨0, _⟩ => rfl | ⟨1, _⟩ => rfl
  have hr : ridx_main_v114 i k = ix2 k (i 1) := funext fun a => match a with | ⟨0, _⟩ => rfl | ⟨1, _⟩ => rfl
  rw [hl, hr]
  rfl

/-- The output dense layer, read the same way. -/
theorem v121_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal)) (x8 : (⟨S256x64, .f32⟩ : BufTy).Contents (Elt Ideal)) (x9 : (⟨S64, .f32⟩ : BufTy).Contents (Elt Ideal)) :
    val_main_v121 (F := Ideal) x0 x1 x2 x3 x4 x5 x6 x7 x8 x9 = logits (val_main_v117 (F := Ideal) x0 x1 x2 x3 x4 x5 x6 x7) x8 x9 := by
  funext i
  have hB : val_main_v120 (F := Ideal) x9 i = x9 (ix1 (i 1)) :=
    ((val_main_v120_apply x9 i).trans (val_main_v119_apply x9 _)).trans (congrArg x9 (funext fun a => match a with | ⟨0, _⟩ => rfl))
  unfold logits
  rw [val_main_v121_apply, val_main_v118_apply, hB, Ideal.addf_def]
  refine congrArg (· + x9 (ix1 (i 1))) (Finset.sum_congr rfl fun k _ => ?_)
  have hl : lidx_main_v118 i k = ix2 (i 0) k := funext fun a => match a with | ⟨0, _⟩ => rfl | ⟨1, _⟩ => rfl
  have hr : ridx_main_v118 i k = ix2 k (i 1) := funext fun a => match a with | ⟨0, _⟩ => rfl | ⟨1, _⟩ => rfl
  rw [hl, hr]
  rfl

/-- A maximum-reduction along the rows, started from a scalar holding the word of minus infinity, is at row `r`
    the fold of `max` from that word's value over the row's 64 entries: the reduction at `r` folds over the indices
    `(r, k)`, `k` running over the reduced axis. -/
theorem rowfold_eq (Z : (⟨S100000x64, .f32⟩ : BufTy).Contents (Elt Ideal)) (c : (⟨S_, .f32⟩ : BufTy).Contents (Elt Ideal))
    (hc : c (Shape.Idx.first h_S_) = ninfW) (j : S100000.Idx) :
    Host.reduce (FloatOps.maximumf (F := Ideal) (φ := .f32)) Z c reducesTo_S100000x64_S100000_d1 h_S_ j
      = (Finset.univ : Finset (Fin 64)).fold max ninfW (fun k => Z (ix2 (j 0) k)) := by
  have h : S100000x64.Reduces [1] S100000 := by decide
  rw [Host.reduce_eq_fold_single _ Z c reducesTo_S100000x64_S100000_d1 h h_S_ j, hc]
  have hf : (Z ∘ h.lift j) = fun k : Fin 64 => Z (ix2 (j 0) k) :=
    funext fun k => congrArg Z (funext fun a => Fin.ext (by match a with | ⟨0, _⟩ => rfl | ⟨1, _⟩ => rfl))
  exact congrArg (fun f => (Finset.univ : Finset (Fin 64)).fold max ninfW f) hf

/-- The row maximum the log-softmax subtracts: the fold above, once more against the word of minus infinity. -/
theorem call2_v2_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal)) (x8 : (⟨S256x64, .f32⟩ : BufTy).Contents (Elt Ideal)) (x9 : (⟨S64, .f32⟩ : BufTy).Contents (Elt Ideal)) (j : S100000.Idx) :
    val_main_call2_v2 (F := Ideal) x0 x1 x2 x3 x4 x5 x6 x7 x8 x9 j = rowMax (val_main_v121 (F := Ideal) x0 x1 x2 x3 x4 x5 x6 x7 x8 x9) (j 0) := by
  have h1 : val_main_call2_v1 (F := Ideal) j = ninfW := val_main_call2_v1_apply j
  have h0 : val_main_call2_v0 (F := Ideal) x0 x1 x2 x3 x4 x5 x6 x7 x8 x9 j
      = (Finset.univ : Finset (Fin 64)).fold max ninfW (fun k => (val_main_v121 (F := Ideal) x0 x1 x2 x3 x4 x5 x6 x7 x8 x9) (ix2 (j 0) k)) := by
    unfold val_main_call2_v0
    exact rowfold_eq _ _ rfl j
  unfold rowMax
  rw [val_main_call2_v2_apply, h1, h0]
  rfl

/-- The logits minus their row maximum (broadcast back along the row). -/
theorem call2_v5_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal)) (x8 : (⟨S256x64, .f32⟩ : BufTy).Contents (Elt Ideal)) (x9 : (⟨S64, .f32⟩ : BufTy).Contents (Elt Ideal)) :
    val_main_call2_v5 (F := Ideal) x0 x1 x2 x3 x4 x5 x6 x7 x8 x9 = shifted (val_main_v121 (F := Ideal) x0 x1 x2 x3 x4 x5 x6 x7 x8 x9) := by
  funext i
  unfold shifted
  rw [val_main_call2_v5_apply, val_main_call2_v4_apply, val_main_call2_v3_apply, call2_v2_eq]
  rfl

/-- The row sum of the exponentials of the shifted logits; the sum starts from the zero word's value, which is `0`. -/
theorem call2_v7_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal)) (x8 : (⟨S256x64, .f32⟩ : BufTy).Contents (Elt Ideal)) (x9 : (⟨S64, .f32⟩ : BufTy).Contents (Elt Ideal)) (j : S100000.Idx) :
    val_main_call2_v7 (F := Ideal) x0 x1 x2 x3 x4 x5 x6 x7 x8 x9 j
      = ∑ k : Fin 64, Ideal.exp (shifted (val_main_v121 (F := Ideal) x0 x1 x2 x3 x4 x5 x6 x7 x8 x9) (ix2 (j 0) k)) := by
  refine (val_main_call2_v7_apply x0 x1 x2 x3 x4 x5 x6 x7 x8 x9 j).trans ?_
  show Ideal.ofBits .f32 0x00000000#32 + _ = _
  rw [Ideal.ofBits_zero_f32, zero_add]
  refine Finset.sum_congr rfl fun k _ => ?_
  have hi : idx_main_call2_v7 j k = ix2 (j 0) k := funext fun a => match a with | ⟨0, _⟩ => rfl | ⟨1, _⟩ => rfl
  rw [val_main_call2_v6_apply, call2_v5_eq, hi]
  exact Ideal.hostUnary_exp_def _

/-- The row-wise log-softmax of the logits: the shifted entry minus the logarithm of that row sum. -/
theorem v122_lsm (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal)) (x8 : (⟨S256x64, .f32⟩ : BufTy).Contents (Elt Ideal)) (x9 : (⟨S64, .f32⟩ : BufTy).Contents (Elt Ideal)) :
    val_main_v122 (F := Ideal) x0 x1 x2 x3 x4 x5 x6 x7 x8 x9 = logSoftmax (val_main_v121 (F := Ideal) x0 x1 x2 x3 x4 x5 x6 x7 x8 x9) := by
  funext i
  unfold logSoftmax
  rw [val_main_v122_apply, val_main_call2_v10_apply, val_main_call2_v9_apply, val_main_call2_v8_apply, call2_v7_eq,
    call2_v5_eq, Ideal.subf_def, Ideal.hostUnary_log_def]
  generalize val_main_v121 (F := Ideal) x0 x1 x2 x3 x4 x5 x6 x7 x8 x9 = Z
  rfl

/-- The last stage as a whole. -/
theorem v122_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal)) (x8 : (⟨S256x64, .f32⟩ : BufTy).Contents (Elt Ideal)) (x9 : (⟨S64, .f32⟩ : BufTy).Contents (Elt Ideal)) :
    val_main_v122 (F := Ideal) x0 x1 x2 x3 x4 x5 x6 x7 x8 x9
      = head (val_main_v104 (F := Ideal) x0 x1 x2 x3 x4) (val_main_v59 (F := Ideal) x0 x1 x2 x3 x4) (val_main_v106 (F := Ideal) x1) x5 x6 x7 x8 x9 :=
  (v122_lsm x0 x1 x2 x3 x4 x5 x6 x7 x8 x9).trans (by unfold head; rw [v121_eq, v117_eq, v113_eq])

end Cert.Gcn.Ref

end
-- ==== Proof.Assemble.lean ====
/-
  The idealized kernel program's result, assembled: the buffer contents are followed from the launch through the host
  operations and the three regions. The first region leaves `x·W1`; the host operations aggregate its rows over the
  edges; the second region leaves the second layer's features; the host operations aggregate those; the third region
  leaves the log-softmax of the two dense layers of the second convolution's activation. Each of these is the
  reference's stage function of the argument arrays, so the result buffer ends at the reference's last stage.
-/
import proofs.«147519_j74242804678709_2_alg».proof.Proof.KRun
import proofs.«147519_j74242804678709_2_alg».proof.Proof.Reg0
import proofs.«147519_j74242804678709_2_alg».proof.Proof.Reg1
import proofs.«147519_j74242804678709_2_alg».proof.Proof.Reg2
import proofs.«147519_j74242804678709_2_alg».proof.Proof.HostK
import proofs.«147519_j74242804678709_2_alg».proof.Proof.RefIsSpec

set_option maxRecDepth 16384

noncomputable section

namespace Cert.KernelIdeal.Hand

open Cert.KernelIdeal Cert.KernelIdeal.Gen Cert.ReferenceIdeal.ReadP Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry -/

theorem w1_main_v1 : W1 m ρ c (Proc.devRef .tc main_v1) = val_main_v1 (F := Ideal) (m ((c.tc : Thread nD τ).loc main_arg1)) := K0_v1 (W0 m ρ c)
theorem w1_main_v3 : W1 m ρ c (Proc.devRef .tc main_v3) = val_main_v3 (F := Ideal) (m ((c.tc : Thread nD τ).loc main_arg1)) := K0_v3 (W0 m ρ c)
theorem w1_main_v17 : W1 m ρ c (Proc.devRef .tc main_v17) = val_main_v51 (F := Ideal) (m ((c.tc : Thread nD τ).loc main_arg1)) := K0_v17 (W0 m ρ c)
theorem w1_main_v33 : W1 m ρ c (Proc.devRef .tc main_v33) = val_main_v40 (F := Ideal) (m ((c.tc : Thread nD τ).loc main_arg1)) := K0_v33 (W0 m ρ c)
theorem w1_main_arg0 : W1 m ρ c (Proc.devRef .tc main_arg0) = (m ((c.tc : Thread nD τ).loc main_arg0)) := K0_keeps_main_arg0 (W0 m ρ c)
theorem w1_main_arg2 : W1 m ρ c (Proc.devRef .tc main_arg2) = (m ((c.tc : Thread nD τ).loc main_arg2)) := K0_keeps_main_arg2 (W0 m ρ c)
theorem w1_main_arg3 : W1 m ρ c (Proc.devRef .tc main_arg3) = (m ((c.tc : Thread nD τ).loc main_arg3)) := K0_keeps_main_arg3 (W0 m ρ c)
theorem w1_main_arg4 : W1 m ρ c (Proc.devRef .tc main_arg4) = (m ((c.tc : Thread nD τ).loc main_arg4)) := K0_keeps_main_arg4 (W0 m ρ c)
theorem w1_main_arg5 : W1 m ρ c (Proc.devRef .tc main_arg5) = (m ((c.tc : Thread nD τ).loc main_arg5)) := K0_keeps_main_arg5 (W0 m ρ c)
theorem w1_main_arg6 : W1 m ρ c (Proc.devRef .tc main_arg6) = (m ((c.tc : Thread nD τ).loc main_arg6)) := K0_keeps_main_arg6 (W0 m ρ c)
theorem w1_main_arg7 : W1 m ρ c (Proc.devRef .tc main_arg7) = (m ((c.tc : Thread nD τ).loc main_arg7)) := K0_keeps_main_arg7 (W0 m ρ c)
theorem w1_main_arg8 : W1 m ρ c (Proc.devRef .tc main_arg8) = (m ((c.tc : Thread nD τ).loc main_arg8)) := K0_keeps_main_arg8 (W0 m ρ c)
theorem w1_main_arg9 : W1 m ρ c (Proc.devRef .tc main_arg9) = (m ((c.tc : Thread nD τ).loc main_arg9)) := K0_keeps_main_arg9 (W0 m ρ c)

/-! ## At the first region's exit -/

theorem w2_main_v34 : W2 m ρ c (Proc.devRef .tc main_v34) = val_main_v4 (F := Ideal) (m ((c.tc : Thread nD τ).loc main_arg0)) (m ((c.tc : Thread nD τ).loc main_arg2)) := by
  refine (W2_arr m ρ c 2).trans ((final0 (V1 m ρ) c).trans ?_)
  rw [show V1 m ρ c main_arg0 = (m ((c.tc : Thread nD τ).loc main_arg0)) from w1_main_arg0 m ρ c, show V1 m ρ c main_arg2 = (m ((c.tc : Thread nD τ).loc main_arg2)) from w1_main_arg2 m ρ c]
  exact (Cert.Gcn.Ref.v4_eq _ _).symm
theorem w2_main_v1 : W2 m ρ c (Proc.devRef .tc main_v1) = val_main_v1 (F := Ideal) (m ((c.tc : Thread nD τ).loc main_arg1)) :=
  (W2_of_ne m ρ c main_v1 (by decide)).trans (w1_main_v1 m ρ c)
theorem w2_main_v3 : W2 m ρ c (Proc.devRef .tc main_v3) = val_main_v3 (F := Ideal) (m ((c.tc : Thread nD τ).loc main_arg1)) :=
  (W2_of_ne m ρ c main_v3 (by decide)).trans (w1_main_v3 m ρ c)
theorem w2_main_v17 : W2 m ρ c (Proc.devRef .tc main_v17) = val_main_v51 (F := Ideal) (m ((c.tc : Thread nD τ).loc main_arg1)) :=
  (W2_of_ne m ρ c main_v17 (by decide)).trans (w1_main_v17 m ρ c)
theorem w2_main_v33 : W2 m ρ c (Proc.devRef .tc main_v33) = val_main_v40 (F := Ideal) (m ((c.tc : Thread nD τ).loc main_arg1)) :=
  (W2_of_ne m ρ c main_v33 (by decide)).trans (w1_main_v33 m ρ c)
theorem w2_main_arg3 : W2 m ρ c (Proc.devRef .tc main_arg3) = (m ((c.tc : Thread nD τ).loc main_arg3)) :=
  (W2_of_ne m ρ c main_arg3 (by decide)).trans (w1_main_arg3 m ρ c)
theorem w2_main_arg4 : W2 m ρ c (Proc.devRef .tc main_arg4) = (m ((c.tc : Thread nD τ).loc main_arg4)) :=
  (W2_of_ne m ρ c main_arg4 (by decide)).trans (w1_main_arg4 m ρ c)
theorem w2_main_arg5 : W2 m ρ c (Proc.devRef .tc main_arg5) = (m ((c.tc : Thread nD τ).loc main_arg5)) :=
  (W2_of_ne m ρ c main_arg5 (by decide)).trans (w1_main_arg5 m ρ c)
theorem w2_main_arg6 : W2 m ρ c (Proc.devRef .tc main_arg6) = (m ((c.tc : Thread nD τ).loc main_arg6)) :=
  (W2_of_ne m ρ c main_arg6 (by decide)).trans (w1_main_arg6 m ρ c)
theorem w2_main_arg7 : W2 m ρ c (Proc.devRef .tc main_arg7) = (m ((c.tc : Thread nD τ).loc main_arg7)) :=
  (W2_of_ne m ρ c main_arg7 (by decide)).trans (w1_main_arg7 m ρ c)
theorem w2_main_arg8 : W2 m ρ c (Proc.devRef .tc main_arg8) = (m ((c.tc : Thread nD τ).loc main_arg8)) :=
  (W2_of_ne m ρ c main_arg8 (by decide)).trans (w1_main_arg8 m ρ c)
theorem w2_main_arg9 : W2 m ρ c (Proc.devRef .tc main_arg9) = (m ((c.tc : Thread nD τ).loc main_arg9)) :=
  (W2_of_ne m ρ c main_arg9 (by decide)).trans (w1_main_arg9 m ρ c)

/-! ## At the second region's entry -/

theorem w3_main_v52 : W3 m ρ c (Proc.devRef .tc main_v52) = val_main_v49 (F := Ideal) (m ((c.tc : Thread nD τ).loc main_arg0)) (m ((c.tc : Thread nD τ).loc main_arg1)) (m ((c.tc : Thread nD τ).loc main_arg2)) :=
  K1_v52 (W2 m ρ c) _ _ _ (w2_main_v1 m ρ c) (w2_main_v3 m ρ c) (w2_main_v33 m ρ c) (w2_main_v34 m ρ c)
theorem w3_main_v53 : W3 m ρ c (Proc.devRef .tc main_v53) = shapeCast S1x64 (m ((c.tc : Thread nD τ).loc main_arg3)) shapeCasts_S64_S1x64 :=
  (K1_v53 (W2 m ρ c)).trans (congrArg (fun b => shapeCast S1x64 b shapeCasts_S64_S1x64) (w2_main_arg3 m ρ c))
theorem w3_main_v1 : W3 m ρ c (Proc.devRef .tc main_v1) = val_main_v1 (F := Ideal) (m ((c.tc : Thread nD τ).loc main_arg1)) :=
  (K1_keeps_main_v1 (W2 m ρ c)).trans (w2_main_v1 m ρ c)
theorem w3_main_v3 : W3 m ρ c (Proc.devRef .tc main_v3) = val_main_v3 (F := Ideal) (m ((c.tc : Thread nD τ).loc main_arg1)) :=
  (K1_keeps_main_v3 (W2 m ρ c)).trans (w2_main_v3 m ρ c)
theorem w3_main_v17 : W3 m ρ c (Proc.devRef .tc main_v17) = val_main_v51 (F := Ideal) (m ((c.tc : Thread nD τ).loc main_arg1)) :=
  (K1_keeps_main_v17 (W2 m ρ c)).trans (w2_main_v17 m ρ c)
theorem w3_main_v33 : W3 m ρ c (Proc.devRef .tc main_v33) = val_main_v40 (F := Ideal) (m ((c.tc : Thread nD τ).loc main_arg1)) :=
  (K1_keeps_main_v33 (W2 m ρ c)).trans (w2_main_v33 m ρ c)
theorem w3_main_v34 : W3 m ρ c (Proc.devRef .tc main_v34) = val_main_v4 (F := Ideal) (m ((c.tc : Thread nD τ).loc main_arg0)) (m ((c.tc : Thread nD τ).loc main_arg2)) :=
  (K1_keeps_main_v34 (W2 m ρ c)).trans (w2_main_v34 m ρ c)
theorem w3_main_arg4 : W3 m ρ c (Proc.devRef .tc main_arg4) = (m ((c.tc : Thread nD τ).loc main_arg4)) :=
  (K1_keeps_main_arg4 (W2 m ρ c)).trans (w2_main_arg4 m ρ c)
theorem w3_main_arg5 : W3 m ρ c (Proc.devRef .tc main_arg5) = (m ((c.tc : Thread nD τ).loc main_arg5)) :=
  (K1_keeps_main_arg5 (W2 m ρ c)).trans (w2_main_arg5 m ρ c)
theorem w3_main_arg6 : W3 m ρ c (Proc.devRef .tc main_arg6) = (m ((c.tc : Thread nD τ).loc main_arg6)) :=
  (K1_keeps_main_arg6 (W2 m ρ c)).trans (w2_main_arg6 m ρ c)
theorem w3_main_arg7 : W3 m ρ c (Proc.devRef .tc main_arg7) = (m ((c.tc : Thread nD τ).loc main_arg7)) :=
  (K1_keeps_main_arg7 (W2 m ρ c)).trans (w2_main_arg7 m ρ c)
theorem w3_main_arg8 : W3 m ρ c (Proc.devRef .tc main_arg8) = (m ((c.tc : Thread nD τ).loc main_arg8)) :=
  (K1_keeps_main_arg8 (W2 m ρ c)).trans (w2_main_arg8 m ρ c)
theorem w3_main_arg9 : W3 m ρ c (Proc.devRef .tc main_arg9) = (m ((c.tc : Thread nD τ).loc main_arg9)) :=
  (K1_keeps_main_arg9 (W2 m ρ c)).trans (w2_main_arg9 m ρ c)

/-! ## At the second region's exit -/

theorem w4_main_v54 : W4 m ρ c (Proc.devRef .tc main_v54) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 5).trans ((final1 (V3 m ρ) c (m ((c.tc : Thread nD τ).loc main_arg3)) (w3_main_v53 m ρ c)).trans ?_)
  rw [show V3 m ρ c main_v52 = val_main_v49 (F := Ideal) (m ((c.tc : Thread nD τ).loc main_arg0)) (m ((c.tc : Thread nD τ).loc main_arg1)) (m ((c.tc : Thread nD τ).loc main_arg2)) from w3_main_v52 m ρ c,
    show V3 m ρ c main_v34 = val_main_v4 (F := Ideal) (m ((c.tc : Thread nD τ).loc main_arg0)) (m ((c.tc : Thread nD τ).loc main_arg2)) from w3_main_v34 m ρ c,
    show V3 m ρ c main_v17 = val_main_v51 (F := Ideal) (m ((c.tc : Thread nD τ).loc main_arg1)) from w3_main_v17 m ρ c,
    show V3 m ρ c main_arg4 = (m ((c.tc : Thread nD τ).loc main_arg4)) from w3_main_arg4 m ρ c]
  exact (Cert.Gcn.Ref.v59_eq _ _ _ _ _).symm
theorem w4_main_v17 : W4 m ρ c (Proc.devRef .tc main_v17) = val_main_v51 (F := Ideal) (m ((c.tc : Thread nD τ).loc main_arg1)) :=
  (W4_arr m ρ c 2).trans (((dat1 (V3 m ρ) c).arrAt_in 2 rfl _).trans ((A_eq1 (V3 m ρ) c 2).trans (w3_main_v17 m ρ c)))
theorem w4_main_v1 : W4 m ρ c (Proc.devRef .tc main_v1) = val_main_v1 (F := Ideal) (m ((c.tc : Thread nD τ).loc main_arg1)) :=
  (W4_of_ne m ρ c main_v1 (by decide)).trans (w3_main_v1 m ρ c)
theorem w4_main_v3 : W4 m ρ c (Proc.devRef .tc main_v3) = val_main_v3 (F := Ideal) (m ((c.tc : Thread nD τ).loc main_arg1)) :=
  (W4_of_ne m ρ c main_v3 (by decide)).trans (w3_main_v3 m ρ c)
theorem w4_main_v33 : W4 m ρ c (Proc.devRef .tc main_v33) = val_main_v40 (F := Ideal) (m ((c.tc : Thread nD τ).loc main_arg1)) :=
  (W4_of_ne m ρ c main_v33 (by decide)).trans (w3_main_v33 m ρ c)
theorem w4_main_arg5 : W4 m ρ c (Proc.devRef .tc main_arg5) = (m ((c.tc : Thread nD τ).loc main_arg5)) :=
  (W4_of_ne m ρ c main_arg5 (by decide)).trans (w3_main_arg5 m ρ c)
theorem w4_main_arg6 : W4 m ρ c (Proc.devRef .tc main_arg6) = (m ((c.tc : Thread nD τ).loc main_arg6)) :=
  (W4_of_ne m ρ c main_arg6 (by decide)).trans (w3_main_arg6 m ρ c)
theorem w4_main_arg7 : W4 m ρ c (Proc.devRef .tc main_arg7) = (m ((c.tc : Thread nD τ).loc main_arg7)) :=
  (W4_of_ne m ρ c main_arg7 (by decide)).trans (w3_main_arg7 m ρ c)
theorem w4_main_arg8 : W4 m ρ c (Proc.devRef .tc main_arg8) = (m ((c.tc : Thread nD τ).loc main_arg8)) :=
  (W4_of_ne m ρ c main_arg8 (by decide)).trans (w3_main_arg8 m ρ c)
theorem w4_main_arg9 : W4 m ρ c (Proc.devRef .tc main_arg9) = (m ((c.tc : Thread nD τ).loc main_arg9)) :=
  (W4_of_ne m ρ c main_arg9 (by decide)).trans (w3_main_arg9 m ρ c)

/-! ## At the third region's entry -/

theorem w5_main_v72 : W5 m ρ c (Proc.devRef .tc main_v72) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  K2_v72 (W4 m ρ c) _ _ _ _ _ (w4_main_v1 m ρ c) (w4_main_v3 m ρ c)
    ((w4_main_v33 m ρ c).trans (second_edge_weights _).symm) (w4_main_v54 m ρ c)
theorem w5_main_v73 : W5 m ρ c (Proc.devRef .tc main_v73) = shapeCast S1x64 (m ((c.tc : Thread nD τ).loc main_arg5)) shapeCasts_S64_S1x64 :=
  (K2_v73 (W4 m ρ c)).trans (congrArg (fun b => shapeCast S1x64 b shapeCasts_S64_S1x64) (w4_main_arg5 m ρ c))
theorem w5_main_v74 : W5 m ρ c (Proc.devRef .tc main_v74) = shapeCast S1x256 (m ((c.tc : Thread nD τ).loc main_arg7)) shapeCasts_S256_S1x256 :=
  (K2_v74 (W4 m ρ c)).trans (congrArg (fun b => shapeCast S1x256 b shapeCasts_S256_S1x256) (w4_main_arg7 m ρ c))
theorem w5_main_v75 : W5 m ρ c (Proc.devRef .tc main_v75) = shapeCast S1x64 (m ((c.tc : Thread nD τ).loc main_arg9)) shapeCasts_S64_S1x64 :=
  (K2_v75 (W4 m ρ c)).trans (congrArg (fun b => shapeCast S1x64 b shapeCasts_S64_S1x64) (w4_main_arg9 m ρ c))
theorem w5_main_v17 : W5 m ρ c (Proc.devRef .tc main_v17) = val_main_v51 (F := Ideal) (m ((c.tc : Thread nD τ).loc main_arg1)) :=
  (K2_keeps_main_v17 (W4 m ρ c)).trans (w4_main_v17 m ρ c)
theorem w5_main_v54 : W5 m ρ c (Proc.devRef .tc main_v54) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (K2_keeps_main_v54 (W4 m ρ c)).trans (w4_main_v54 m ρ c)
theorem w5_main_arg6 : W5 m ρ c (Proc.devRef .tc main_arg6) = (m ((c.tc : Thread nD τ).loc main_arg6)) :=
  (K2_keeps_main_arg6 (W4 m ρ c)).trans (w4_main_arg6 m ρ c)
theorem w5_main_arg8 : W5 m ρ c (Proc.devRef .tc main_arg8) = (m ((c.tc : Thread nD τ).loc main_arg8)) :=
  (K2_keeps_main_arg8 (W4 m ρ c)).trans (w4_main_arg8 m ρ c)

/-! ## The result -/

/-- The result buffer at the last boundary holds the reference's last stage of the argument arrays. -/
theorem w6_out : W6 m ρ c (Proc.devRef .tc main_v76) = val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W6_arr m ρ c 8).trans ((final2 (V5 m ρ) c (m ((c.tc : Thread nD τ).loc main_arg5)) (m ((c.tc : Thread nD τ).loc main_arg7)) (m ((c.tc : Thread nD τ).loc main_arg9)) (w5_main_v73 m ρ c) (w5_main_v74 m ρ c) (w5_main_v75 m ρ c)).trans ?_)
  rw [show V5 m ρ c main_v72 = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) from w5_main_v72 m ρ c,
    show V5 m ρ c main_v54 = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) from w5_main_v54 m ρ c,
    show V5 m ρ c main_v17 = val_main_v106 (F := Ideal) (m ((c.tc : Thread nD τ).loc main_arg1)) from (w5_main_v17 m ρ c).trans (second_self_weights _).symm,
    show V5 m ρ c main_arg6 = (m ((c.tc : Thread nD τ).loc main_arg6)) from w5_main_arg6 m ρ c,
    show V5 m ρ c main_arg8 = (m ((c.tc : Thread nD τ).loc main_arg8)) from w5_main_arg8 m ρ c]
  exact (Cert.Gcn.Ref.v122_eq _ _ _ _ _ _ _ _ _ _).symm

/-- The run of the idealized kernel program, read: the result at the reference's last stage of the arguments, the
    arguments unchanged. -/
theorem run_value :
    θ_run defs (onTc (τ := τ) (main (F := Ideal))) ⟨m, fun _ => 0, ρ⟩ (fun r => ∀ c : Dev nD,
      r.2.mem ((c.tc : Thread nD τ).loc main_v76) = val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (w6_out m ρ c), (h c).2⟩) (run_out m ρ)

end Cert.KernelIdeal.Hand

end
-- ==== Proof.RefStaged.lean ====
/-
  The reference program's run, read in five consecutive stretches of its host operations. What each stretch leaves in
  the buffers later stretches read is stated as the stage functions of the argument arrays (the degree normalisation
  and the first product; the first convolution layer; the second normalisation; the second layer and the dense layers;
  the log-softmax), so the whole composed term is never written out. The run then says: every weakly fair execution
  terminates with the result buffer at the last stage of the arguments, and the arguments unchanged.
-/
import proofs.«147519_j74242804678709_2_alg».proof.Proof.RefRun
import proofs.«147519_j74242804678709_2_alg».proof.Proof.RefStages
import Idealize.ShloMosaic.Lib.Pipeline.Frame

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (W : Valuation τ sig (Elt F))

/-! ## The first stretch: index normalisation, degrees, the edge weights, and the first product -/

theorem A_v1 : after (opsA (F := F)) W (Proc.devRef .tc main_v1) = val_main_v1 (F := F) (W (Proc.devRef .tc main_arg1)) := by
  unfold opsA; after_results_simp <;> rfl
theorem A_v3 : after (opsA (F := F)) W (Proc.devRef .tc main_v3) = val_main_v3 (F := F) (W (Proc.devRef .tc main_arg1)) := by
  unfold opsA; after_results_simp <;> rfl
theorem A_v4 : after (opsA (F := F)) W (Proc.devRef .tc main_v4) = val_main_v4 (F := F) (W (Proc.devRef .tc main_arg0)) (W (Proc.devRef .tc main_arg2)) := by
  unfold opsA; after_results_simp <;> rfl
theorem A_v16 : after (opsA (F := F)) W (Proc.devRef .tc main_v16) = val_main_v16 (F := F) (W (Proc.devRef .tc main_arg1)) := by
  unfold opsA; after_results_simp <;> rfl
theorem A_v31 : after (opsA (F := F)) W (Proc.devRef .tc main_v31) = val_main_v31 (F := F) (W (Proc.devRef .tc main_arg1)) := by
  unfold opsA; after_results_simp <;> rfl
theorem A_keeps_main_arg3 : after (opsA (F := F)) W (Proc.devRef .tc main_arg3) = W (Proc.devRef .tc main_arg3) := by
  unfold opsA; after_results_simp <;> rfl
theorem A_keeps_main_arg4 : after (opsA (F := F)) W (Proc.devRef .tc main_arg4) = W (Proc.devRef .tc main_arg4) := by
  unfold opsA; after_results_simp <;> rfl
theorem A_keeps_main_arg5 : after (opsA (F := F)) W (Proc.devRef .tc main_arg5) = W (Proc.devRef .tc main_arg5) := by
  unfold opsA; after_results_simp <;> rfl
theorem A_keeps_main_arg6 : after (opsA (F := F)) W (Proc.devRef .tc main_arg6) = W (Proc.devRef .tc main_arg6) := by
  unfold opsA; after_results_simp <;> rfl
theorem A_keeps_main_arg7 : after (opsA (F := F)) W (Proc.devRef .tc main_arg7) = W (Proc.devRef .tc main_arg7) := by
  unfold opsA; after_results_simp <;> rfl
theorem A_keeps_main_arg8 : after (opsA (F := F)) W (Proc.devRef .tc main_arg8) = W (Proc.devRef .tc main_arg8) := by
  unfold opsA; after_results_simp <;> rfl
theorem A_keeps_main_arg9 : after (opsA (F := F)) W (Proc.devRef .tc main_arg9) = W (Proc.devRef .tc main_arg9) := by
  unfold opsA; after_results_simp <;> rfl

/-! ## The second stretch: the first convolution layer and the second product -/

theorem B_v59 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F))
    (h1 : W (Proc.devRef .tc main_v1) = val_main_v1 (F := F) x1) (h3 : W (Proc.devRef .tc main_v3) = val_main_v3 (F := F) x1)
    (h4 : W (Proc.devRef .tc main_v4) = val_main_v4 (F := F) x0 x2) (h16 : W (Proc.devRef .tc main_v16) = val_main_v16 (F := F) x1)
    (h31 : W (Proc.devRef .tc main_v31) = val_main_v31 (F := F) x1) (ha3 : W (Proc.devRef .tc main_arg3) = x3) (ha4 : W (Proc.devRef .tc main_arg4) = x4) :
    after (opsB (F := F)) W (Proc.devRef .tc main_v59) = val_main_v59 (F := F) x0 x1 x2 x3 x4 := by
  unfold opsB; after_results_simp
  rw [h1, h3, h4, h16, h31, ha3, ha4]
  rfl
theorem B_keeps_main_v1 : after (opsB (F := F)) W (Proc.devRef .tc main_v1) = W (Proc.devRef .tc main_v1) := by
  unfold opsB; after_results_simp <;> rfl
theorem B_keeps_main_v3 : after (opsB (F := F)) W (Proc.devRef .tc main_v3) = W (Proc.devRef .tc main_v3) := by
  unfold opsB; after_results_simp <;> rfl
theorem B_keeps_main_arg5 : after (opsB (F := F)) W (Proc.devRef .tc main_arg5) = W (Proc.devRef .tc main_arg5) := by
  unfold opsB; after_results_simp <;> rfl
theorem B_keeps_main_arg6 : after (opsB (F := F)) W (Proc.devRef .tc main_arg6) = W (Proc.devRef .tc main_arg6) := by
  unfold opsB; after_results_simp <;> rfl
theorem B_keeps_main_arg7 : after (opsB (F := F)) W (Proc.devRef .tc main_arg7) = W (Proc.devRef .tc main_arg7) := by
  unfold opsB; after_results_simp <;> rfl
theorem B_keeps_main_arg8 : after (opsB (F := F)) W (Proc.devRef .tc main_arg8) = W (Proc.devRef .tc main_arg8) := by
  unfold opsB; after_results_simp <;> rfl
theorem B_keeps_main_arg9 : after (opsB (F := F)) W (Proc.devRef .tc main_arg9) = W (Proc.devRef .tc main_arg9) := by
  unfold opsB; after_results_simp <;> rfl

/-! ## The third stretch: the degrees and edge weights once more -/

theorem C_v71 (x1 : (⟨S2x1600000, .i32⟩ : BufTy).Contents (Elt F)) (h3 : W (Proc.devRef .tc main_v3) = val_main_v3 (F := F) x1) :
    after (opsC (F := F)) W (Proc.devRef .tc main_v71) = val_main_v71 (F := F) x1 := by
  unfold opsC; after_results_simp
  rw [h3]
  rfl
theorem C_v86 (x1 : (⟨S2x1600000, .i32⟩ : BufTy).Contents (Elt F)) (h1 : W (Proc.devRef .tc main_v1) = val_main_v1 (F := F) x1) (h3 : W (Proc.devRef .tc main_v3) = val_main_v3 (F := F) x1) :
    after (opsC (F := F)) W (Proc.devRef .tc main_v86) = val_main_v86 (F := F) x1 := by
  unfold opsC; after_results_simp
  rw [h1, h3]
  rfl
theorem C_keeps_main_v1 : after (opsC (F := F)) W (Proc.devRef .tc main_v1) = W (Proc.devRef .tc main_v1) := by
  unfold opsC; after_results_simp <;> rfl
theorem C_keeps_main_v3 : after (opsC (F := F)) W (Proc.devRef .tc main_v3) = W (Proc.devRef .tc main_v3) := by
  unfold opsC; after_results_simp <;> rfl
theorem C_keeps_main_v59 : after (opsC (F := F)) W (Proc.devRef .tc main_v59) = W (Proc.devRef .tc main_v59) := by
  unfold opsC; after_results_simp <;> rfl
theorem C_keeps_main_arg5 : after (opsC (F := F)) W (Proc.devRef .tc main_arg5) = W (Proc.devRef .tc main_arg5) := by
  unfold opsC; after_results_simp <;> rfl
theorem C_keeps_main_arg6 : after (opsC (F := F)) W (Proc.devRef .tc main_arg6) = W (Proc.devRef .tc main_arg6) := by
  unfold opsC; after_results_simp <;> rfl
theorem C_keeps_main_arg7 : after (opsC (F := F)) W (Proc.devRef .tc main_arg7) = W (Proc.devRef .tc main_arg7) := by
  unfold opsC; after_results_simp <;> rfl
theorem C_keeps_main_arg8 : after (opsC (F := F)) W (Proc.devRef .tc main_arg8) = W (Proc.devRef .tc main_arg8) := by
  unfold opsC; after_results_simp <;> rfl
theorem C_keeps_main_arg9 : after (opsC (F := F)) W (Proc.devRef .tc main_arg9) = W (Proc.devRef .tc main_arg9) := by
  unfold opsC; after_results_simp <;> rfl

/-! ## The fourth stretch: the second convolution layer and the two dense layers -/

theorem D_v121 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x256, .f32⟩ : BufTy).Contents (Elt F)) (x7 : (⟨S256, .f32⟩ : BufTy).Contents (Elt F)) (x8 : (⟨S256x64, .f32⟩ : BufTy).Contents (Elt F)) (x9 : (⟨S64, .f32⟩ : BufTy).Contents (Elt F))
    (h1 : W (Proc.devRef .tc main_v1) = val_main_v1 (F := F) x1) (h3 : W (Proc.devRef .tc main_v3) = val_main_v3 (F := F) x1)
    (h59 : W (Proc.devRef .tc main_v59) = val_main_v59 (F := F) x0 x1 x2 x3 x4) (h71 : W (Proc.devRef .tc main_v71) = val_main_v71 (F := F) x1)
    (h86 : W (Proc.devRef .tc main_v86) = val_main_v86 (F := F) x1)
    (ha5 : W (Proc.devRef .tc main_arg5) = x5) (ha6 : W (Proc.devRef .tc main_arg6) = x6) (ha7 : W (Proc.devRef .tc main_arg7) = x7)
    (ha8 : W (Proc.devRef .tc main_arg8) = x8) (ha9 : W (Proc.devRef .tc main_arg9) = x9) :
    after (opsD (F := F)) W (Proc.devRef .tc main_v121) = val_main_v121 (F := F) x0 x1 x2 x3 x4 x5 x6 x7 x8 x9 := by
  unfold opsD; after_results_simp
  rw [h1, h3, h59, h71, h86, ha5, ha6, ha7, ha8, ha9]
  rfl

/-! ## The fifth stretch: the log-softmax -/

/-- A value moved to a buffer's own type and back is the value. -/
theorem ofBuf_toBuf {T : BufTy} (x : TRef sig T) (v : T.Contents (Elt F)) : x.ofBuf (x.toBuf v) = v := by
  obtain ⟨r, h, h1, h2⟩ := x
  subst h
  rfl

theorem E_v122 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x256, .f32⟩ : BufTy).Contents (Elt F)) (x7 : (⟨S256, .f32⟩ : BufTy).Contents (Elt F)) (x8 : (⟨S256x64, .f32⟩ : BufTy).Contents (Elt F)) (x9 : (⟨S64, .f32⟩ : BufTy).Contents (Elt F))
    (h121 : W (Proc.devRef .tc main_v121) = val_main_v121 (F := F) x0 x1 x2 x3 x4 x5 x6 x7 x8 x9) :
    after (opsE (F := F)) W (Proc.devRef .tc main_v122) = val_main_v122 (F := F) x0 x1 x2 x3 x4 x5 x6 x7 x8 x9 := by
  unfold opsE; after_results_simp
  rw [h121]
  simp only [ofBuf_toBuf]
  rfl

/-! ## The whole list -/

/-- After all the operations the result buffer holds the last stage of the argument buffers' contents. -/
theorem value_v122 : after (ops (F := F)) W (Proc.devRef .tc main_v122)
    = val_main_v122 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [ops_split, after_append, after_append, after_append, after_append]
  have a1 := A_v1 W
  have a3 := A_v3 W
  have b1 := (B_keeps_main_v1 (after opsA W)).trans a1
  have b3 := (B_keeps_main_v3 (after opsA W)).trans a3
  have b59 := B_v59 (after opsA W) _ _ _ _ _ a1 a3 (A_v4 W) (A_v16 W) (A_v31 W) (A_keeps_main_arg3 W) (A_keeps_main_arg4 W)
  have c1 := (C_keeps_main_v1 (after opsB (after opsA W))).trans b1
  have c3 := (C_keeps_main_v3 (after opsB (after opsA W))).trans b3
  have c59 := (C_keeps_main_v59 (after opsB (after opsA W))).trans b59
  have c71 := C_v71 (after opsB (after opsA W)) _ b3
  have c86 := C_v86 (after opsB (after opsA W)) _ b1 b3
  have p5 := (C_keeps_main_arg5 (after opsB (after opsA W))).trans ((B_keeps_main_arg5 (after opsA W)).trans (A_keeps_main_arg5 W))
  have p6 := (C_keeps_main_arg6 (after opsB (after opsA W))).trans ((B_keeps_main_arg6 (after opsA W)).trans (A_keeps_main_arg6 W))
  have p7 := (C_keeps_main_arg7 (after opsB (after opsA W))).trans ((B_keeps_main_arg7 (after opsA W)).trans (A_keeps_main_arg7 W))
  have p8 := (C_keeps_main_arg8 (after opsB (after opsA W))).trans ((B_keeps_main_arg8 (after opsA W)).trans (A_keeps_main_arg8 W))
  have p9 := (C_keeps_main_arg9 (after opsB (after opsA W))).trans ((B_keeps_main_arg9 (after opsA W)).trans (A_keeps_main_arg9 W))
  have d121 := D_v121 (after opsC (after opsB (after opsA W))) _ _ _ _ _ _ _ _ _ _ c1 c3 c59 c71 c86 p5 p6 p7 p8 p9
  exact E_v122 (after opsD (after opsC (after opsB (after opsA W)))) _ _ _ _ _ _ _ _ _ _ d121

/-- No operation writes an argument's buffer. -/
theorem keeps_main_arg0 : after (ops (F := F)) W (Proc.devRef .tc main_arg0) = W (Proc.devRef .tc main_arg0) := by
  after_results_simp <;> rfl
theorem keeps_main_arg1 : after (ops (F := F)) W (Proc.devRef .tc main_arg1) = W (Proc.devRef .tc main_arg1) := by
  after_results_simp <;> rfl
theorem keeps_main_arg2 : after (ops (F := F)) W (Proc.devRef .tc main_arg2) = W (Proc.devRef .tc main_arg2) := by
  after_results_simp <;> rfl
theorem keeps_main_arg3 : after (ops (F := F)) W (Proc.devRef .tc main_arg3) = W (Proc.devRef .tc main_arg3) := by
  after_results_simp <;> rfl
theorem keeps_main_arg4 : after (ops (F := F)) W (Proc.devRef .tc main_arg4) = W (Proc.devRef .tc main_arg4) := by
  after_results_simp <;> rfl
theorem keeps_main_arg5 : after (ops (F := F)) W (Proc.devRef .tc main_arg5) = W (Proc.devRef .tc main_arg5) := by
  after_results_simp <;> rfl
theorem keeps_main_arg6 : after (ops (F := F)) W (Proc.devRef .tc main_arg6) = W (Proc.devRef .tc main_arg6) := by
  after_results_simp <;> rfl
theorem keeps_main_arg7 : after (ops (F := F)) W (Proc.devRef .tc main_arg7) = W (Proc.devRef .tc main_arg7) := by
  after_results_simp <;> rfl
theorem keeps_main_arg8 : after (ops (F := F)) W (Proc.devRef .tc main_arg8) = W (Proc.devRef .tc main_arg8) := by
  after_results_simp <;> rfl
theorem keeps_main_arg9 : after (ops (F := F)) W (Proc.devRef .tc main_arg9) = W (Proc.devRef .tc main_arg9) := by
  after_results_simp <;> rfl

/-- The run: every weakly fair execution terminates, the result at the last stage of the arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v122) = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v122).trans (value_v122 _),
      (h c main_arg0).trans (keeps_main_arg0 _),
      (h c main_arg1).trans (keeps_main_arg1 _),
      (h c main_arg2).trans (keeps_main_arg2 _),
      (h c main_arg3).trans (keeps_main_arg3 _),
      (h c main_arg4).trans (keeps_main_arg4 _),
      (h c main_arg5).trans (keeps_main_arg5 _),
      (h c main_arg6).trans (keeps_main_arg6 _),
      (h c main_arg7).trans (keeps_main_arg7 _),
      (h c main_arg8).trans (keeps_main_arg8 _),
      (h c main_arg9).trans (keeps_main_arg9 _)⟩)
    (run_seq scopedRefs_eq scopedSems_eq defs main (fun _ => ops) main_eq (fun _ => ops_sub) m ρ)

end Cert.ReferenceIdeal.Staged

end
-- ==== Proof.lean ====
/-
  The certificate of a two-layer degree-normalised graph convolution with two dense layers and a row-wise log-softmax:
  three row-blocked matrix kernels with the edge aggregation between them, against the same network written with whole
  arrays.

  On the extended reals the two programs are the same function of the arguments, stage by stage. A change of float
  format is the identity, a block product into a zero accumulator is the plain sum over the contraction index, and a
  lane sum or a lane maximum is the sum or the maximum over the row; each region's result array, block by block, is
  therefore the reference's stage of the arrays the region is entered from (Reg0, Reg1, Reg2), the host operations
  between the regions are the reference's own (HostK), and the result buffer ends at the reference's last stage
  (Assemble). The reference's run is read in five stretches (RefStaged). The edge aggregation — a gather and a
  scatter-add along the edge list — is the same term on both sides and is never opened, and no law that would need
  finite inputs is used: only sums and products regrouped by rows.

  The frames of the two kernel programs are the generated ones; the reference's frame is its run with the result
  dropped; nothing was rewritten by the idealization, so `preserves` is trivial.
-/
import proofs.«147519_j74242804678709_2_alg».proof.Defs
import proofs.«147519_j74242804678709_2_alg».proof.Proof.Gen.Kernel
import proofs.«147519_j74242804678709_2_alg».proof.Proof.Gen.Kernel.Skeleton
import proofs.«147519_j74242804678709_2_alg».proof.Proof.Gen.Kernel.Launch
import proofs.«147519_j74242804678709_2_alg».proof.Proof.Gen.Kernel.Points
import proofs.«147519_j74242804678709_2_alg».proof.Proof.Gen.Kernel.Frame
import proofs.«147519_j74242804678709_2_alg».proof.Proof.Gen.KernelIdeal
import proofs.«147519_j74242804678709_2_alg».proof.Proof.Gen.KernelIdeal.Skeleton
import proofs.«147519_j74242804678709_2_alg».proof.Proof.Gen.KernelIdeal.Launch
import proofs.«147519_j74242804678709_2_alg».proof.Proof.Gen.KernelIdeal.Points
import proofs.«147519_j74242804678709_2_alg».proof.Proof.Gen.KernelIdeal.Frame
import proofs.«147519_j74242804678709_2_alg».proof.Proof.Gen.ReferenceIdeal
import proofs.«147519_j74242804678709_2_alg».proof.Proof.Gen.Pre_finite_inputs
import proofs.«147519_j74242804678709_2_alg».proof.Proof.Assemble
import proofs.«147519_j74242804678709_2_alg».proof.Proof.RefStaged
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Staged.run (F := Ideal) m ρ)

theorem preserves : Cert.preserves_Kernel_KernelIdeal := trivial

/-- Both runs end with the result at the reference's last stage of the argument arrays, which agree. -/
theorem algebraic : Cert.algebraic_KernelIdeal_ReferenceIdeal := by
  intro m ρ m' ρ' _ hagree
  refine ⟨fun c => Cert.ReferenceIdeal.ReadP.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Hand.run_value m ρ, ?_⟩
  refine (θ_run Cert.ReferenceIdeal.defs _ _).mono (fun _ h c => ⟨(h c).1.trans ?_, (h c).2⟩)
    (Cert.ReferenceIdeal.Staged.run (F := Ideal) m' ρ')
  obtain ⟨e0, e1, e2, e3, e4, e5, e6, e7, e8, e9⟩ := hagree c
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
